-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x2 : Shape := ⟨4, ![8, 256, 256, 2]⟩
abbrev S64x64x128 : Shape := ⟨3, ![64, 64, 128]⟩
abbrev S_ : Shape := ⟨0, ![]⟩

class Facts : Prop where
  bcast_S_S8x256x256x2 : S_.BroadcastsInDim S8x256x256x2 (![] : Fin 0 → Fin S8x256x256x2.rank)
  reducesTo_S8x256x256x2_S_d0_1_2_3 : S8x256x256x2.ReducesTo [0, 1, 2, 3] S_
  h_S_ : 0 < S_.numel
  bcast_S_S64x64x128 : S_.BroadcastsInDim S64x64x128 (![] : Fin 0 → Fin S64x64x128.rank)
  reducesTo_S64x64x128_S_d0_1_2 : S64x64x128.ReducesTo [0, 1, 2] S_

variable [Facts]

def fn {F : FTy → Type} [FloatOps F] (main_arg0 : FVec F S8x256x256x2 .f32) (main_arg1 : FVec F S64x64x128 .f32) : IVec S_ 1 :=
  let main_v0 : FVec F S8x256x256x2 .f32 := Host.absf main_arg0
  let main_cst : FVec F S_ .f32 := constant S_ .f32 0x7F800000#32
  let main_v1 : FVec F S8x256x256x2 .f32 := broadcastInDim S8x256x256x2 ![] bcast_S_S8x256x256x2 main_cst
  let main_v2 : IVec S8x256x256x2 1 := cmpf .olt main_v0 main_v1
  let main_c : IVec S_ 1 := constantI S_ 1 1#1
  let main_v3 : IVec S_ 1 := (fun x v => Host.reduce IntOp.andi x v reducesTo_S8x256x256x2_S_d0_1_2_3 h_S_) main_v2 main_c
  let main_v4 : FVec F S64x64x128 .f32 := Host.absf main_arg1
  let main_cst_0 : FVec F S_ .f32 := constant S_ .f32 0x7F800000#32
  let main_v5 : FVec F S64x64x128 .f32 := broadcastInDim S64x64x128 ![] bcast_S_S64x64x128 main_cst_0
  let main_v6 : IVec S64x64x128 1 := cmpf .olt main_v4 main_v5
  let main_c_1 : IVec S_ 1 := constantI S_ 1 1#1
  let main_v7 : IVec S_ 1 := (fun x v => Host.reduce IntOp.andi x v reducesTo_S64x64x128_S_d0_1_2 h_S_) main_v6 main_c_1
  let main_v8 : IVec S_ 1 := andi main_v3 main_v7
  let main_cst_2 : FVec F S_ .f32 := constant S_ .f32 0xCC000000#32
  let main_v9 : FVec F S8x256x256x2 .f32 := broadcastInDim S8x256x256x2 ![] bcast_S_S8x256x256x2 main_cst_2
  let main_v10 : IVec S8x256x256x2 1 := cmpf .oge main_arg0 main_v9
  let main_cst_3 : FVec F S_ .f32 := constant S_ .f32 0x4C000000#32
  let main_v11 : FVec F S8x256x256x2 .f32 := broadcastInDim S8x256x256x2 ![] bcast_S_S8x256x256x2 main_cst_3
  let main_v12 : IVec S8x256x256x2 1 := cmpf .olt main_arg0 main_v11
  let main_v13 : IVec S8x256x256x2 1 := andi main_v10 main_v12
  let main_c_4 : IVec S_ 1 := constantI S_ 1 1#1
  let main_v14 : IVec S_ 1 := (fun x v => Host.reduce IntOp.andi x v reducesTo_S8x256x256x2_S_d0_1_2_3 h_S_) main_v13 main_c_4
  let main_v15 : IVec S_ 1 := andi main_v8 main_v14
  main_v15
-- ==== Kernel.lean ====
abbrev S8x256x256x2 : Shape := ⟨4, ![8, 256, 256, 2]⟩
abbrev S64x64x128 : Shape := ⟨3, ![64, 64, 128]⟩
abbrev S524288x2 : Shape := ⟨2, ![524288, 2]⟩
abbrev S64x8192 : Shape := ⟨2, ![64, 8192]⟩
abbrev S524288x128 : Shape := ⟨2, ![524288, 128]⟩
abbrev S256x2 : Shape := ⟨2, ![256, 2]⟩
abbrev S256x128 : Shape := ⟨2, ![256, 128]⟩
abbrev S256x1 : Shape := ⟨2, ![256, 1]⟩
abbrev S256x64 : Shape := ⟨2, ![256, 64]⟩
abbrev S256x8192 : Shape := ⟨2, ![256, 8192]⟩
abbrev S256x64x128 : Shape := ⟨3, ![256, 64, 128]⟩
abbrev S256x64x1 : Shape := ⟨3, ![256, 64, 1]⟩
abbrev S8x256x256x128 : Shape := ⟨4, ![8, 256, 256, 128]⟩

abbrev nBuf : Space → Nat
  | .hbm => 7
  | .vmem => 5
  | .smem => 0
  | _ => 0

abbrev bufTy : (tb : Table) → Fin (tcTables nBuf tb) → BufTy
  | .hbm, ⟨0, _⟩ => ⟨S8x256x256x2, .f32⟩
  | .hbm, ⟨1, _⟩ => ⟨S64x64x128, .f32⟩
  | .hbm, ⟨2, _⟩ => ⟨S524288x2, .f32⟩
  | .hbm, ⟨3, _⟩ => ⟨S64x8192, .f32⟩
  | .hbm, ⟨4, _⟩ => ⟨S64x8192, .bf16⟩
  | .hbm, ⟨5, _⟩ => ⟨S524288x128, .f32⟩
  | .hbm, ⟨6, _⟩ => ⟨S8x256x256x128, .f32⟩
  | .local _ .vmem, ⟨0, _⟩ => ⟨S256x2, .f32⟩
  | .local _ .vmem, ⟨1, _⟩ => ⟨S256x2, .f32⟩
  | .local _ .vmem, ⟨2, _⟩ => ⟨S64x8192, .bf16⟩
  | .local _ .vmem, ⟨3, _⟩ => ⟨S256x128, .f32⟩
  | .local _ .vmem, ⟨4, _⟩ => ⟨S256x128, .f32⟩
  | _, _ => ⟨S8x256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x256x2_S524288x2 : S8x256x256x2.ShapeCasts S524288x2
  shapeCasts_S64x64x128_S64x8192 : S64x64x128.ShapeCasts S64x8192
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  slices_S256x2_o0_0_S256x1 : S256x2.Slices ![0, 0] S256x1
  slices_S256x2_o0_1_S256x1 : S256x2.Slices ![0, 1] S256x1
  iota_S256x64_d1_w32 : S256x64.Iotas .tc 32 [1]
  broadcasts_S256x1_S256x64 : S256x1.Broadcasts S256x64
  shapeCasts_S256x1_S256x1 : S256x1.ShapeCasts S256x1
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  shapeCasts_S256x8192_S256x64x128 : S256x8192.ShapeCasts S256x64x128
  shapeCasts_S256x64_S256x64x1 : S256x64.ShapeCasts S256x64x1
  broadcasts_S256x64x1_S256x64x128 : S256x64x1.Broadcasts S256x64x128
  reduces_S256x64x128_S256x128 : S256x64x128.Reduces [1] S256x128
  inb_S256x128_S256x128_0_0 : ∀ a, (![0, 0] : Fin 2 → Nat) a + S256x128.size a ≤ S256x128.size a
  h_S256x128 : 0 < S256x128.numel
  shapeCasts_S524288x128_S8x256x256x128 : S524288x128.ShapeCasts S8x256x256x128
  dot_S256x64_S64x8192_S256x8192_1_0_0_1_n_n_wf : DotDims.WF S256x64 S64x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S524288x2.size a
  hwx0_0 : ∀ i : grid0.Coords, EltTy.bits .f32 = 32 ∨ (Rect.block (s := S524288x2) S256x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .bf16 = 32 ∨ (Rect.block (s := S64x8192) S64x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S524288x128.size a
  hwx0_2 : ∀ i : grid0.Coords, EltTy.bits .f32 = 32 ∨ (Rect.block (s := S524288x128) S256x128.size (cc0_transform_2 i) (hinb0_2 i)).WholeWords (EltTy.packing .f32)

variable [Facts₀]

def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf

abbrev win0_0 : Pipeline.Window sig grid0 :=
  Pipeline.Window.ofSpec (Memref.whole main_v0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x256x2 : Shape := ⟨4, ![8, 256, 256, 2]⟩
abbrev S64x64x128 : Shape := ⟨3, ![64, 64, 128]⟩
abbrev S8x256x256x1 : Shape := ⟨4, ![8, 256, 256, 1]⟩
abbrev S8x256x256 : Shape := ⟨3, ![8, 256, 256]⟩
abbrev S_ : Shape := ⟨0, ![]⟩
abbrev S8x256x256x128 : Shape := ⟨4, ![8, 256, 256, 128]⟩

abbrev nBuf : Space → Nat
  | .hbm => 168
  | .vmem => 0
  | .smem => 0
  | _ => 0

abbrev hbmTy0_0 (i : Nat) : BufTy := match i % 128 with
  | 0 => ⟨S8x256x256x2, .f32⟩
  | 1 => ⟨S64x64x128, .f32⟩
  | 2 => ⟨S8x256x256x1, .f32⟩
  | 3 => ⟨S8x256x256, .f32⟩
  | 4 => ⟨S_, .f32⟩
  | 5 => ⟨S8x256x256, .f32⟩
  | 6 => ⟨S8x256x256, .f32⟩
  | 7 => ⟨S_, .f32⟩
  | 8 => ⟨S8x256x256, .f32⟩
  | 9 => ⟨S8x256x256, .f32⟩
  | 10 => ⟨S_, .f32⟩
  | 11 => ⟨S8x256x256, .f32⟩
  | 12 => ⟨S8x256x256, .f32⟩
  | 13 => ⟨S8x256x256x1, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S8x256x256, .f32⟩
  | 25 => ⟨S8x256x256, .i32⟩
  | 26 => ⟨S8x256x256, .f32⟩
  | 27 => ⟨S8x256x256, .i32⟩
  | 28 => ⟨S_, .i32⟩
  | 29 => ⟨S8x256x256, .i32⟩
  | 30 => ⟨S8x256x256, .i32⟩
  | 31 => ⟨S_, .i32⟩
  | 32 => ⟨S_, .i32⟩
  | 33 => ⟨S_, .i32⟩
  | 34 => ⟨S8x256x256, .i32⟩
  | 35 => ⟨S8x256x256, .i32⟩
  | 36 => ⟨S_, .i32⟩
  | 37 => ⟨S8x256x256, .i32⟩
  | 38 => ⟨S8x256x256, .i32⟩
  | 39 => ⟨S_, .i32⟩
  | 40 => ⟨S8x256x256, .i32⟩
  | 41 => ⟨S8x256x256, .i32⟩
  | 42 => ⟨S_, .i32⟩
  | 43 => ⟨S_, .i32⟩
  | 44 => ⟨S_, .i32⟩
  | 45 => ⟨S8x256x256, .i32⟩
  | 46 => ⟨S8x256x256, .i32⟩
  | 47 => ⟨S_, .i32⟩
  | 48 => ⟨S8x256x256, .i32⟩
  | 49 => ⟨S8x256x256, .i32⟩
  | 50 => ⟨S_, .i32⟩
  | 51 => ⟨S_, .i32⟩
  | 52 => ⟨S_, .i32⟩
  | 53 => ⟨S8x256x256, .i32⟩
  | 54 => ⟨S8x256x256, .i32⟩
  | 55 => ⟨S_, .i32⟩
  | 56 => ⟨S8x256x256, .i32⟩
  | 57 => ⟨S8x256x256, .i32⟩
  | 58 => ⟨S_, .i32⟩
  | 59 => ⟨S_, .i32⟩
  | 60 => ⟨S_, .i32⟩
  | 61 => ⟨S8x256x256, .i32⟩
  | 62 => ⟨S8x256x256, .i32⟩
  | 63 => ⟨S_, .i32⟩
  | 64 => ⟨S8x256x256, .i32⟩
  | 65 => ⟨S8x256x256, .i32⟩
  | 66 => ⟨S_, .i32⟩
  | 67 => ⟨S8x256x256, .i32⟩
  | 68 => ⟨S8x256x256, .i1⟩
  | 69 => ⟨S_, .i32⟩
  | 70 => ⟨S8x256x256, .i32⟩
  | 71 => ⟨S8x256x256, .i32⟩
  | 72 => ⟨S8x256x256, .i32⟩
  | 73 => ⟨S_, .i32⟩
  | 74 => ⟨S8x256x256, .i32⟩
  | 75 => ⟨S8x256x256, .i1⟩
  | 76 => ⟨S_, .i32⟩
  | 77 => ⟨S8x256x256, .i32⟩
  | 78 => ⟨S8x256x256, .i32⟩
  | 79 => ⟨S8x256x256, .i32⟩
  | 80 => ⟨S8x256x256x1, .i32⟩
  | 81 => ⟨S8x256x256x1, .i32⟩
  | 82 => ⟨S8x256x256x2, .i32⟩
  | 83 => ⟨S8x256x256x128, .f32⟩
  | 84 => ⟨S_, .i32⟩
  | 85 => ⟨S8x256x256, .i32⟩
  | 86 => ⟨S8x256x256, .i1⟩
  | 87 => ⟨S_, .i32⟩
  | 88 => ⟨S8x256x256, .i32⟩
  | 89 => ⟨S8x256x256, .i32⟩
  | 90 => ⟨S8x256x256, .i32⟩
  | 91 => ⟨S_, .i32⟩
  | 92 => ⟨S8x256x256, .i32⟩
  | 93 => ⟨S8x256x256, .i1⟩
  | 94 => ⟨S_, .i32⟩
  | 95 => ⟨S8x256x256, .i32⟩
  | 96 => ⟨S8x256x256, .i32⟩
  | 97 => ⟨S8x256x256, .i32⟩
  | 98 => ⟨S8x256x256x1, .i32⟩
  | 99 => ⟨S8x256x256x1, .i32⟩
  | 100 => ⟨S8x256x256x2, .i32⟩
  | 101 => ⟨S8x256x256x128, .f32⟩
  | 102 => ⟨S_, .i32⟩
  | 103 => ⟨S8x256x256, .i32⟩
  | 104 => ⟨S8x256x256, .i1⟩
  | 105 => ⟨S_, .i32⟩
  | 106 => ⟨S8x256x256, .i32⟩
  | 107 => ⟨S8x256x256, .i32⟩
  | 108 => ⟨S8x256x256, .i32⟩
  | 109 => ⟨S_, .i32⟩
  | 110 => ⟨S8x256x256, .i32⟩
  | 111 => ⟨S8x256x256, .i1⟩
  | 112 => ⟨S_, .i32⟩
  | 113 => ⟨S8x256x256, .i32⟩
  | 114 => ⟨S8x256x256, .i32⟩
  | 115 => ⟨S8x256x256, .i32⟩
  | 116 => ⟨S8x256x256x1, .i32⟩
  | 117 => ⟨S8x256x256x1, .i32⟩
  | 118 => ⟨S8x256x256x2, .i32⟩
  | 119 => ⟨S8x256x256x128, .f32⟩
  | 120 => ⟨S_, .i32⟩
  | 121 => ⟨S8x256x256, .i32⟩
  | 122 => ⟨S8x256x256, .i1⟩
  | 123 => ⟨S_, .i32⟩
  | 124 => ⟨S8x256x256, .i32⟩
  | 125 => ⟨S8x256x256, .i32⟩
  | 126 => ⟨S8x256x256, .i32⟩
  | 127 => ⟨S_, .i32⟩
  | _ => ⟨S8x256x256x2, .f32⟩

abbrev hbmTy0_1 (i : Nat) : BufTy := match i % 128 with
  | 0 => ⟨S8x256x256, .i32⟩
  | 1 => ⟨S8x256x256, .i1⟩
  | 2 => ⟨S_, .i32⟩
  | 3 => ⟨S8x256x256, .i32⟩
  | 4 => ⟨S8x256x256, .i32⟩
  | 5 => ⟨S8x256x256, .i32⟩
  | 6 => ⟨S8x256x256x1, .i32⟩
  | 7 => ⟨S8x256x256x1, .i32⟩
  | 8 => ⟨S8x256x256x2, .i32⟩
  | 9 => ⟨S8x256x256x128, .f32⟩
  | 10 => ⟨S8x256x256, .f32⟩
  | 11 => ⟨S8x256x256, .f32⟩
  | 12 => ⟨S8x256x256x1, .f32⟩
  | 13 => ⟨S8x256x256, .f32⟩
  | 14 => ⟨S8x256x256, .f32⟩
  | 15 => ⟨S8x256x256x1, .f32⟩
  | 16 => ⟨S_, .f32⟩
  | 17 => ⟨S8x256x256x1, .f32⟩
  | 18 => ⟨S8x256x256x1, .f32⟩
  | 19 => ⟨S8x256x256x128, .f32⟩
  | 20 => ⟨S8x256x256x128, .f32⟩
  | 21 => ⟨S8x256x256x128, .f32⟩
  | 22 => ⟨S8x256x256x128, .f32⟩
  | 23 => ⟨S8x256x256x128, .f32⟩
  | 24 => ⟨S_, .f32⟩
  | 25 => ⟨S8x256x256x1, .f32⟩
  | 26 => ⟨S8x256x256x1, .f32⟩
  | 27 => ⟨S8x256x256x128, .f32⟩
  | 28 => ⟨S8x256x256x128, .f32⟩
  | 29 => ⟨S8x256x256x128, .f32⟩
  | 30 => ⟨S8x256x256x128, .f32⟩
  | 31 => ⟨S8x256x256x128, .f32⟩
  | 32 => ⟨S_, .f32⟩
  | 33 => ⟨S8x256x256x1, .f32⟩
  | 34 => ⟨S8x256x256x1, .f32⟩
  | 35 => ⟨S8x256x256x128, .f32⟩
  | 36 => ⟨S8x256x256x128, .f32⟩
  | 37 => ⟨S8x256x256x128, .f32⟩
  | 38 => ⟨S8x256x256x128, .f32⟩
  | 39 => ⟨S8x256x256x128, .f32⟩
  | _ => ⟨S8x256x256x2, .f32⟩

abbrev hbmTy (i : Nat) : BufTy := match i / 128 with
  | 0 => hbmTy0_0 i
  | 1 => hbmTy0_1 i
  | _ => ⟨S8x256x256x2, .f32⟩

abbrev bufTy : (tb : Table) → Fin (tcTables nBuf tb) → BufTy
  | .hbm, ⟨i, _⟩ => hbmTy i
  | _, _ => ⟨S8x256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_c_14 : Ref sig .tc := ⟨.hbm, 66, rfl⟩
abbrev main_v28 : Ref sig .tc := ⟨.hbm, 67, rfl⟩
abbrev main_v29 : Ref sig .tc := ⟨.hbm, 68, rfl⟩
abbrev main_c_15 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_16 : Ref sig .tc := ⟨.hbm, 73, rfl⟩
abbrev main_v33 : Ref sig .tc := ⟨.hbm, 74, rfl⟩
abbrev main_v34 : Ref sig .tc := ⟨.hbm, 75, rfl⟩
abbrev main_c_17 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_18 : Ref sig .tc := ⟨.hbm, 84, rfl⟩
abbrev main_v42 : Ref sig .tc := ⟨.hbm, 85, rfl⟩
abbrev main_v43 : Ref sig .tc := ⟨.hbm, 86, rfl⟩
abbrev main_c_19 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_20 : Ref sig .tc := ⟨.hbm, 91, rfl⟩
abbrev main_v47 : Ref sig .tc := ⟨.hbm, 92, rfl⟩
abbrev main_v48 : Ref sig .tc := ⟨.hbm, 93, rfl⟩
abbrev main_c_21 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_26 : Ref sig .tc := ⟨.hbm, 120, rfl⟩
abbrev main_v70 : Ref sig .tc := ⟨.hbm, 121, rfl⟩
abbrev main_v71 : Ref sig .tc := ⟨.hbm, 122, rfl⟩
abbrev main_c_27 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_28 : Ref sig .tc := ⟨.hbm, 127, rfl⟩
abbrev main_v75 : Ref sig .tc := ⟨.hbm, 128, rfl⟩
abbrev main_v76 : Ref sig .tc := ⟨.hbm, 129, rfl⟩
abbrev main_c_29 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_30 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_31 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_32 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩

abbrev nD : Nat := 1
abbrev τ : Topo := Topo.v7x

variable {F : FTy → Type} [FloatOps F]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  bcast_S_S8x256x256 : S_.BroadcastsInDim S8x256x256 (![] : Fin 0 → Fin S8x256x256.rank)
  slices_S8x256x256x2_S8x256x256x1_0_0_0_1 : S8x256x256x2.Slices ![0, 0, 0, 1] S8x256x256x1
  bcast_S8x256x256_S8x256x256x1_0_1_2 : S8x256x256.BroadcastsInDim S8x256x256x1 (![0, 1, 2] : Fin 3 → Fin S8x256x256x1.rank)
  concatenates_S8x256x256x1_S8x256x256x1_S8x256x256x2_d3 : Shape.Concatenates [S8x256x256x1, S8x256x256x1] S8x256x256x2 3
  bcast_S_S8x256x256x1 : S_.BroadcastsInDim S8x256x256x1 (![] : Fin 0 → Fin S8x256x256x1.rank)
  bcast_S8x256x256x1_S8x256x256x128_0_1_2_3 : S8x256x256x1.BroadcastsInDim S8x256x256x128 (![0, 1, 2, 3] : Fin 4 → Fin S8x256x256x128.rank)
  gather_S64x64x128_S8x256x256x2_S8x256x256x128_3_01_n_n_01_3_11128_wf : GatherDims.WF S64x64x128 S8x256x256x2 S8x256x256x128 [3] [0, 1] [] [0, 1] [] 3 ![1, 1, 128]

variable [Facts₀]

def gather_S64x64x128_S8x256x256x2_S8x256x256x128_3_01_n_n_01_3_11128 : GatherDims S64x64x128 S8x256x256x2 S8x256x256x128 where
  offsetDims := [3]
  collapsedSliceDims := [0, 1]
  operandBatchingDims := []
  startIndicesBatchingDims := []
  startIndexMap := [0, 1]
  indexVectorDim := 3
  sliceSizes := ![1, 1, 128]
  wf := gather_S64x64x128_S8x256x256x2_S8x256x256x128_3_01_n_n_01_3_11128_wf

class Facts : Prop extends Facts₀ where

variable [Facts]
-- ==== Proof.Spec.lean ====
/-
  The function both programs compute, written once over the extended reals.

  A position `p` is scaled onto the 64-cell grid, `x = (p - 0) / 1 * 64`; the cell is `⌊x⌋` read as a 32-bit signed word
  (a float-to-integer conversion clamps to the word's range); the two neighbouring grid lines are the cell and the cell
  plus one, each clipped into `[0, 63]`; the weight of the upper line is the offset `x` minus the cell converted back
  to a float. The result at `(b, h, w, f)` is the bilinear blend of the table's four corner rows
  `(E[x₀,y₀,f]·(1-dx) + E[x₁,y₀,f]·dx)·(1-dy) + (E[x₀,y₁,f]·(1-dx) + E[x₁,y₁,f]·dx)·dy`.
-/
import Idealize.ShloMosaic.PureOps.Ideal
import Idealize.ShloMosaic.Lib.ValueIdx

noncomputable section

namespace Cert.Bilinear

open Idealize.ShloMosaic Idealize.ShloMosaic.ValueIdx

abbrev SPos : Shape := ⟨4, ![8, 256, 256, 2]⟩
abbrev STab : Shape := ⟨3, ![64, 64, 128]⟩
abbrev SOut : Shape := ⟨4, ![8, 256, 256, 128]⟩

/-- The float words the programs carry: 0, 1 and 64. -/
def zeroW : EReal := Ideal.ofBits .f32 0x00000000#32
def oneW : EReal := Ideal.ofBits .f32 0x3F800000#32
def gridW : EReal := Ideal.ofBits .f32 0x42800000#32

/-- A position scaled onto the grid, with the division by the extent `1` written out. -/
def coordR (p : EReal) : EReal := Ideal.div (p - zeroW) oneW * gridW
/-- The same with the division folded away. -/
def coordK (p : EReal) : EReal := (p - zeroW) * gridW
/-- The floor, the infinities fixed. -/
def fl (x : EReal) : EReal := Ideal.liftRound Int.floor x
/-- The cell of a scaled coordinate as a 32-bit signed word (clamped to the word's range). -/
def cell (x : EReal) : BitVec 32 := Ideal.fptosi 32 (fl x)
/-- A word clipped into `[0, 63]`, read signed. -/
def clip (w : BitVec 32) : BitVec 32 := IntOp.minsi 63#32 (IntOp.maxsi 0#32 w)
/-- The lower grid line of a scaled coordinate. -/
def lo (x : EReal) : BitVec 32 := clip (cell x)
/-- The upper grid line: the cell plus one (wrapping), clipped. -/
def hi (x : EReal) : BitVec 32 := clip (IntOp.addi (cell x) 1#32)
/-- The offset inside the cell, against the cell's word converted back. -/
def fracR (x : EReal) : EReal := x - (((cell x).toInt : ℝ) : EReal)
/-- The offset inside the cell, against the floor itself. -/
def fracK (x : EReal) : EReal := x - fl x
/-- The table row a word selects: the word read signed and clamped into `[0, 63]`. -/
def row (w : BitVec 32) : Fin 64 := ⟨min w.toInt.toNat 63, by omega⟩

/-- The bilinear blend of four corner rows at feature `f`. -/
def blend (E : STab.Idx → EReal) (i0 i1 j0 j1 : Fin 64) (dx dy : EReal) (f : Fin 128) : EReal :=
  (E (ix3 i0 j0 f) * (oneW - dx) + E (ix3 i1 j0 f) * dx) * (oneW - dy)
    + (E (ix3 i0 j1 f) * (oneW - dx) + E (ix3 i1 j1 f) * dx) * dy

/-- The whole result array, index by index, in the reference's spelling. -/
def Gref (P : SPos.Idx → EReal) (E : STab.Idx → EReal) : SOut.Idx → EReal := fun i =>
  blend E (row (lo (coordR (P (ix4 (i 0) (i 1) (i 2) 0))))) (row (hi (coordR (P (ix4 (i 0) (i 1) (i 2) 0)))))
    (row (lo (coordR (P (ix4 (i 0) (i 1) (i 2) 1))))) (row (hi (coordR (P (ix4 (i 0) (i 1) (i 2) 1)))))
    (fracR (coordR (P (ix4 (i 0) (i 1) (i 2) 0)))) (fracR (coordR (P (ix4 (i 0) (i 1) (i 2) 1)))) (i 3)

/-! ## The clipped word is in `[0, 63]` -/

theorem clip_toInt (w : BitVec 32) : 0 ≤ (clip w).toInt ∧ (clip w).toInt ≤ 63 := by
  unfold clip IntOp.minsi IntOp.maxsi
  have h63 : (63#32 : BitVec 32).toInt = 63 := by decide
  have h0 : (0#32 : BitVec 32).toInt = 0 := by decide
  by_cases hw : w.slt 0#32
  · rw [if_pos hw]
    have : (63#32 : BitVec 32).slt 0#32 = false := by decide
    rw [this]; simp only [Bool.false_eq_true, if_false]
    exact ⟨by rw [h0], by rw [h0]; omega⟩
  · rw [if_neg hw]
    have hw' : 0 ≤ w.toInt := by
      simp only [BitVec.slt, decide_eq_true_eq, h0, not_lt] at hw; exact hw
    by_cases h2 : (63#32 : BitVec 32).slt w
    · rw [if_pos h2]; exact ⟨by rw [h63]; omega, by rw [h63]⟩
    · rw [if_neg h2]
      simp only [BitVec.slt, decide_eq_true_eq, h63, not_lt] at h2
      exact ⟨hw', h2⟩

/-- A clipped word is not negative. -/
theorem clip_not_slt_zero (w : BitVec 32) : (clip w).slt 0#32 = false := by
  have h := (clip_toInt w).1
  have h0 : (0#32 : BitVec 32).toInt = 0 := by decide
  simp only [BitVec.slt, h0, decide_eq_false_iff_not, not_lt]; exact h

/-- The row a clipped word selects is the word itself. -/
theorem row_clip_val (w : BitVec 32) : (row (clip w)).val = (clip w).toNat := by
  obtain ⟨h0, h1⟩ := clip_toInt w
  have hlt : (clip w).toNat < 2 ^ 31 := by
    by_contra hc
    have : (clip w).toInt < 0 := by
      rw [BitVec.toInt_eq_toNat_cond]; have := (clip w).isLt; split <;> omega
    omega
  have he : (clip w).toInt = ((clip w).toNat : Int) := by
    rw [BitVec.toInt_eq_toNat_cond]; rw [if_pos (by omega)]
  show min (clip w).toInt.toNat 63 = _
  rw [he] at h1 ⊢
  simp only [Int.toNat_natCast]
  omega

end Cert.Bilinear

end
-- ==== Proof.KLayout.lean ====
/-
  Layout operations of the interpolation body read at one entry, each at an index written by its coordinates and
  generic in the extents: a column repeated across the columns, a matrix whose columns are split into a middle and
  a last axis, a matrix given a trailing unit axis, that unit axis repeated, one column cut out of a matrix, and the
  sum over the middle axis of a rank-3 array.
-/
import Idealize.ShloMosaic.PureOps.Ideal
import Idealize.ShloMosaic.PureOps.Ideal.Laws
import Idealize.ShloMosaic.Lib.ValueIdx
import Idealize.ShloMosaic.Lib.Pipeline.Value

noncomputable section

namespace Cert.KLayout

open Idealize.ShloMosaic Idealize.ShloMosaic.ValueIdx
open scoped BigOperators

section Layout
variable {α : Type}

/-- A column repeated across the columns, read at (p, c): the column at (p, 0). -/
theorem bcastCol_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h _ _ fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl]

/-- One column cut out of a matrix, read at (p, u): the matrix at (p, o). -/
theorem sliceCol_apply {a n : ℕ} (o : ℕ) (ho : o < n) (x : (⟨2, ![a, n]⟩ : Shape).Idx → α)
    (h : (⟨2, ![a, n]⟩ : Shape).Slices ![0, o] ⟨2, ![a, 1]⟩) (p : Fin a) (u : Fin 1) :
    extractStridedSlice ⟨2, ![a, 1]⟩ ![0, o] x h (ix2 p u) = x (ix2 p ⟨o, ho⟩) :=
  extractStridedSlice_apply _ x h _ _ fun ax => match ax with
    | ⟨0, _⟩ => by show p.val = 0 + p.val; omega
    | ⟨1, _⟩ => by show o = o + u.val; have := u.isLt; omega

/-- The columns of a matrix split into a middle and a last axis, read at (p, g, f): the matrix at (p, g·c + f). -/
theorem splitCols_apply {a b c n : ℕ} (hn : b * c = n) (v : (⟨2, ![a, n]⟩ : Shape).Idx → α)
    (h : (⟨2, ![a, n]⟩ : Shape).ShapeCasts ⟨3, ![a, b, c]⟩) (p : Fin a) (g : Fin b) (f : Fin c) :
    shapeCast ⟨3, ![a, b, c]⟩ v h (ix3 p g f)
      = v (ix2 p ⟨g.val * c + f.val, by
          have := g.isLt; have := f.isLt; subst hn
          calc g.val * c + f.val < g.val * c + c := by omega
            _ = (g.val + 1) * c := by ring
            _ ≤ b * c := Nat.mul_le_mul_right c (by omega)⟩) := by
  refine shapeCast_apply v h _ _ ?_
  rw [Shape.rowMajor_val_two, Shape.rowMajor_val_three]
  show p.val * n + (g.val * c + f.val) = (p.val * b + g.val) * c + f.val
  subst hn; ring

/-- A matrix given a trailing unit axis, read at (p, g, u): the matrix at (p, g). -/
theorem addUnit_apply {a b : ℕ} (v : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ v h (ix3 p g u) = v (ix2 p g) := by
  refine shapeCast_apply v h _ _ ?_
  rw [Shape.rowMajor_val_two, Shape.rowMajor_val_three]
  show p.val * b + g.val = (p.val * b + g.val) * 1 + u.val
  have := u.isLt; omega

/-- A trailing unit axis repeated, read at (p, g, f): the array at (p, g, 0). -/
theorem bcastLast_apply {a b c : ℕ} (v : (⟨3, ![a, b, 1]⟩ : Shape).Idx → α)
    (h : (⟨3, ![a, b, 1]⟩ : Shape).Broadcasts ⟨3, ![a, b, c]⟩) (p : Fin a) (g : Fin b) (f : Fin c) :
    broadcastTo ⟨3, ![a, b, c]⟩ v h (ix3 p g f) = v (ix3 p g (0 : Fin 1)) :=
  broadcastTo_apply v h _ _ fun ax => match ax with
    | ⟨0, _⟩ => by
      show p.val = if a = 1 then 0 else p.val
      split
      · have := p.isLt; omega
      · rfl
    | ⟨1, _⟩ => by
      show g.val = if b = 1 then 0 else g.val
      split
      · have := g.isLt; omega
      · rfl
    | ⟨2, _⟩ => by
      show (0 : ℕ) = if (1 : ℕ) = 1 then 0 else f.val
      rw [if_pos rfl]

end Layout

/-- The sum over the middle axis of a rank-3 array into the zero word, read at (p, f): the sum over the middle
    coordinate. -/
theorem midSum_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (f : Fin c) :
    multiReduction .add [1] ⟨2, ![a, c]⟩ src 0x00000000#32 h hφ hacc (ix2 p f) = ∑ g : Fin b, src (ix3 p g f) := by
  refine (Ideal.multiReduction_add_single src 0x00000000#32 h hφ hacc (ix2 p f)).trans ?_
  refine Finset.sum_congr rfl fun g _ => congrArg src ?_
  funext ax; apply Fin.ext
  match ax with
  | ⟨0, _⟩ => rfl
  | ⟨1, _⟩ => rfl
  | ⟨2, _⟩ => rfl

end Cert.KLayout

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KPay.lean ====
/-
  The interpolation body's stored block at one entry.

  Row `r` of the position block gives the two scaled coordinates; each axis gets a vector of 64 weights that is zero
  except at the lower grid line (weight one minus the offset) and the upper grid line (weight the offset), the two added
  where the lines coincide; the stored entry (r, f) is the sum over the second axis' grid lines g of the second axis'
  weight times the sum over the first axis' grid lines k of the first axis' weight times the table at (k, g·128 + f).
-/
import proofs.«162530_j16896401342851_2_alg».proof.Proof.Gen.KernelIdeal.Frame
import proofs.«162530_j16896401342851_2_alg».proof.Proof.Spec
import proofs.«162530_j16896401342851_2_alg».proof.Proof.KLayout
import proofs.«162530_j16896401342851_2_alg».proof.Proof.LibDense

noncomputable section

namespace Cert.KPay

open Idealize.ShloMosaic Idealize.ShloMosaic.ValueIdx Cert.KernelIdeal Cert.KernelIdeal.Gen Cert.Bilinear
open scoped BigOperators

/-- The weight of grid line `k` on one axis, in the body's own spelling over 32-bit words: the lower line `a` carries
    one minus the offset, the upper line `b` the offset. -/
def wgtW (a b : BitVec 32) (d : EReal) (k : Fin 64) : EReal :=
  Scalar.select (IntOp.cmpi .eq (BitVec.ofNat 32 k.val) a) (oneW - d) zeroW
    + Scalar.select (IntOp.cmpi .eq (BitVec.ofNat 32 k.val) b) d zeroW

/-- One entry of the stored block from the row's two positions and the table. -/
def rowOut (px py : EReal) (T : (⟨2, ![64, 8192]⟩ : Shape).Idx → EReal) (f : Fin 128) : EReal :=
  ∑ g : Fin 64, (∑ k : Fin 64, wgtW (lo (coordK px)) (hi (coordK px)) (fracK (coordK px)) k
      * T (ix2 k ⟨g.val * 128 + f.val, by have := g.isLt; have := f.isLt; omega⟩))
    * wgtW (lo (coordK py)) (hi (coordK py)) (fracK (coordK py)) g

/-- The table read at (k, g, f) through its flattening. -/
def tabFlat (E : S64x64x128.Idx → EReal) : S64x8192.Idx → EReal :=
  shapeCast S64x8192 E shapeCasts_S64x64x128_S64x8192

/-- The kernel program's whole result, index by index. -/
def Gker (P : S8x256x256x2.Idx → EReal) (E : S64x64x128.Idx → EReal) : S8x256x256x128.Idx → EReal := fun i =>
  rowOut (P (ix4 ⟨(i 0).val, (i 0).isLt⟩ ⟨(i 1).val, (i 1).isLt⟩ ⟨(i 2).val, (i 2).isLt⟩ (0 : Fin 2)))
    (P (ix4 ⟨(i 0).val, (i 0).isLt⟩ ⟨(i 1).val, (i 1).isLt⟩ ⟨(i 2).val, (i 2).isLt⟩ (1 : Fin 2))) (tabFlat E) ⟨(i 3).val, (i 3).isLt⟩

/-! ## The scalar chain of one row -/

theorem pay3_apply (x0 : FVec Ideal S256x2 .f32) (r : Fin 256) (u : Fin 1) :
    k0_pay3 (F := Ideal) x0 (ix2 r u) = coordK (x0 (ix2 r (0 : Fin 2))) := by
  unfold k0_pay3 k0_pay2
  rw [shapeCast_self]
  exact congrArg (fun z => (z - zeroW) * gridW) (KLayout.sliceCol_apply 0 (by decide) x0 slices_S256x2_o0_0_S256x1 r u)

theorem pay4_apply (x0 : FVec Ideal S256x2 .f32) (r : Fin 256) (u : Fin 1) :
    k0_pay4 (F := Ideal) x0 (ix2 r u) = coordK (x0 (ix2 r (1 : Fin 2))) := by
  unfold k0_pay4 k0_pay2
  rw [shapeCast_self]
  exact congrArg (fun z => (z - zeroW) * gridW) (KLayout.sliceCol_apply 1 (by decide) x0 slices_S256x2_o0_1_S256x1 r u)

theorem pay5_apply (x0 : FVec Ideal S256x2 .f32) (r : Fin 256) (u : Fin 1) :
    k0_pay5 (F := Ideal) x0 (ix2 r u) = fl (coordK (x0 (ix2 r (0 : Fin 2)))) :=
  congrArg fl (pay3_apply x0 r u)

theorem pay6_apply (x0 : FVec Ideal S256x2 .f32) (r : Fin 256) (u : Fin 1) :
    k0_pay6 (F := Ideal) x0 (ix2 r u) = fl (coordK (x0 (ix2 r (1 : Fin 2)))) :=
  congrArg fl (pay4_apply x0 r u)

theorem pay7_apply (x0 : FVec Ideal S256x2 .f32) (r : Fin 256) (u : Fin 1) :
    k0_pay7 (F := Ideal) x0 (ix2 r u) = cell (coordK (x0 (ix2 r (0 : Fin 2)))) :=
  congrArg (Ideal.fptosi 32) (pay5_apply x0 r u)

theorem pay8_apply (x0 : FVec Ideal S256x2 .f32) (r : Fin 256) (u : Fin 1) :
    k0_pay8 (F := Ideal) x0 (ix2 r u) = cell (coordK (x0 (ix2 r (1 : Fin 2)))) :=
  congrArg (Ideal.fptosi 32) (pay6_apply x0 r u)

theorem pay9_apply (x0 : FVec Ideal S256x2 .f32) (r : Fin 256) (u : Fin 1) :
    k0_pay9 (F := Ideal) x0 (ix2 r u) = hi (coordK (x0 (ix2 r (0 : Fin 2)))) :=
  congrArg (fun w => clip (IntOp.addi w 1#32)) (pay7_apply x0 r u)

theorem pay10_apply (x0 : FVec Ideal S256x2 .f32) (r : Fin 256) (u : Fin 1) :
    k0_pay10 (F := Ideal) x0 (ix2 r u) = hi (coordK (x0 (ix2 r (1 : Fin 2)))) :=
  congrArg (fun w => clip (IntOp.addi w 1#32)) (pay8_apply x0 r u)

theorem pay11_apply (x0 : FVec Ideal S256x2 .f32) (r : Fin 256) (u : Fin 1) :
    k0_pay11 (F := Ideal) x0 (ix2 r u) = lo (coordK (x0 (ix2 r (1 : Fin 2)))) :=
  congrArg clip (pay8_apply x0 r u)

theorem pay12_apply (x0 : FVec Ideal S256x2 .f32) (r : Fin 256) (u : Fin 1) :
    k0_pay12 (F := Ideal) x0 (ix2 r u) = fracK (coordK (x0 (ix2 r (0 : Fin 2)))) := by
  show k0_pay3 (F := Ideal) x0 (ix2 r u) - k0_pay5 (F := Ideal) x0 (ix2 r u) = _
  rw [pay3_apply, pay5_apply]; rfl

theorem pay13_apply (x0 : FVec Ideal S256x2 .f32) (r : Fin 256) (u : Fin 1) :
    k0_pay13 (F := Ideal) x0 (ix2 r u) = fracK (coordK (x0 (ix2 r (1 : Fin 2)))) := by
  show k0_pay4 (F := Ideal) x0 (ix2 r u) - k0_pay6 (F := Ideal) x0 (ix2 r u) = _
  rw [pay4_apply, pay6_apply]; rfl

theorem pay14_apply (x0 : FVec Ideal S256x2 .f32) (r : Fin 256) (k : Fin 64) :
    k0_pay14 (F := Ideal) x0 (ix2 r k) = IntOp.cmpi .eq (BitVec.ofNat 32 k.val) (lo (coordK (x0 (ix2 r (0 : Fin 2))))) := by
  unfold k0_pay14
  show IntOp.cmpi .eq (iota .tc S256x64 32 [1] iota_S256x64_d1_w32 (ix2 r k)) (broadcastTo S256x64 _ broadcasts_S256x1_S256x64 (ix2 r k)) = _
  rw [iota_single_apply, KLayout.bcastCol_apply]
  exact congrArg (fun w => IntOp.cmpi .eq (BitVec.ofNat 32 k.val) (clip w)) (pay7_apply x0 r 0)

/-! ## One axis' weight vector at a grid line -/

theorem wvec_apply (vc : IVec S256x64 1) (va : IVec S256x64 32) (vb : IVec S256x1 32) (c : EReal)
    (d : FVec Ideal S256x1 .f32) (r : Fin 256) (k : Fin 64) :
    addf (select vc (broadcastTo S256x64 (shapeCast S256x1 (subf (broadcast S256x1 c) d) shapeCasts_S256x1_S256x1)
            broadcasts_S256x1_S256x64) (broadcast S256x64 (FloatOps.ofBits (F := Ideal) .f32 0#32)))
        (select (cmpi .eq va (broadcastTo S256x64 vb broadcasts_S256x1_S256x64))
          (broadcastTo S256x64 (shapeCast S256x1 d shapeCasts_S256x1_S256x1) broadcasts_S256x1_S256x64)
          (broadcast S256x64 (FloatOps.ofBits (F := Ideal) .f32 0#32))) (ix2 r k)
      = Scalar.select (vc (ix2 r k)) (c - d (ix2 r (0 : Fin 1))) zeroW
          + Scalar.select (IntOp.cmpi .eq (va (ix2 r k)) (vb (ix2 r (0 : Fin 1)))) (d (ix2 r (0 : Fin 1))) zeroW := by
  rw [shapeCast_self, shapeCast_self]
  show Scalar.select (vc (ix2 r k)) (broadcastTo S256x64 (subf (broadcast S256x1 c) d) broadcasts_S256x1_S256x64 (ix2 r k)) zeroW
      + Scalar.select (IntOp.cmpi .eq (va (ix2 r k)) (broadcastTo S256x64 vb broadcasts_S256x1_S256x64 (ix2 r k)))
          (broadcastTo S256x64 d broadcasts_S256x1_S256x64 (ix2 r k)) zeroW = _
  rw [KLayout.bcastCol_apply, KLayout.bcastCol_apply, KLayout.bcastCol_apply]
  rfl

/-! ## The stored value at one entry, over the body's intermediate vectors -/

set_option maxHeartbeats 1000000 in
theorem pay1_apply (v21 v27 v35 : IVec S256x1 32) (v36 v37 : FVec Ideal S256x1 .f32) (v38 v39 : IVec S256x64 32)
    (v41 : IVec S256x64 1) (c1 : EReal) (x1 : FVec Ideal S64x8192 .bf16) (r : Fin 256) (f : Fin 128) :
    k0_pay1 (F := Ideal) v21 v27 v35 v36 v37 v38 v39 v41 c1 x1 (ix2 r f)
      = ∑ g : Fin 64, (∑ k : Fin 64,
            (Scalar.select (v41 (ix2 r k)) (c1 - v36 (ix2 r (0 : Fin 1))) zeroW
              + Scalar.select (IntOp.cmpi .eq (v38 (ix2 r k)) (v21 (ix2 r (0 : Fin 1)))) (v36 (ix2 r (0 : Fin 1))) zeroW)
            * x1 (ix2 k ⟨g.val * 128 + f.val, by have := g.isLt; have := f.isLt; omega⟩))
          * (Scalar.select (IntOp.cmpi .eq (v39 (ix2 r g)) (v35 (ix2 r (0 : Fin 1)))) (oneW - v37 (ix2 r (0 : Fin 1))) zeroW
              + Scalar.select (IntOp.cmpi .eq (v39 (ix2 r g)) (v27 (ix2 r (0 : Fin 1)))) (v37 (ix2 r (0 : Fin 1))) zeroW) := by
  unfold k0_pay1
  refine (KLayout.midSum_apply _ _ _ _ r f).trans ?_
  refine Finset.sum_congr rfl fun g _ => ?_
  refine congrArg₂ (· * ·) ?_ ?_
  · refine (KLayout.splitCols_apply (by norm_num) _ _ r g f).trans ?_
    unfold dot_S256x64_S64x8192_S256x8192_1_0_0_1_n_n
    refine (Cert.Dense.matmul_plain_apply _ _ _ r _).trans ?_
    refine Finset.sum_congr rfl fun k _ => ?_
    refine congrArg₂ (· * ·) ?_ ?_
    · exact wvec_apply v41 v38 v21 c1 v36 r k
    · rw [shapeCast_self]
  · refine (KLayout.bcastLast_apply _ _ r g f).trans ?_
    refine (KLayout.addUnit_apply _ _ r g 0).trans ?_
    refine (wvec_apply _ v39 v27 _ v37 r g).trans ?_
    show Scalar.select (IntOp.cmpi .eq (v39 (ix2 r g)) (broadcastTo S256x64 v35 broadcasts_S256x1_S256x64 (ix2 r g))) _ _ + _ = _
    rw [KLayout.bcastCol_apply]
    rfl

/-! ## The stored block at one entry -/

theorem hz2 : (![0, 0] : Fin 2 → Nat) = fun _ => 0 := by
  funext a; match a with | ⟨0, _⟩ => rfl | ⟨1, _⟩ => rfl

theorem out_apply (x0 : FVec Ideal S256x2 .f32) (x1 : FVec Ideal S64x8192 .bf16) (r : Fin 256) (f : Fin 128) :
    out0_2 (F := Ideal) x0 x1 (ix2 r f) = rowOut (x0 (ix2 r (0 : Fin 2))) (x0 (ix2 r (1 : Fin 2))) x1 f := by
  unfold out0_2
  rw [View.canon_unit_zero hz2]
  simp only [View.ld_unit_zero (S := S256x2) hz2, View.ld_unit_zero (S := S64x8192) hz2]
  refine (pay1_apply _ _ _ _ _ _ _ _ _ x1 r f).trans ?_
  unfold rowOut wgtW
  rw [pay9_apply, pay10_apply, pay11_apply, pay12_apply, pay13_apply]
  refine Finset.sum_congr rfl fun g _ => ?_
  rw [iota_single_apply]
  refine congrArg₂ (· * ·) (Finset.sum_congr rfl fun k _ => ?_) rfl
  rw [pay14_apply, iota_single_apply]
  rfl

end Cert.KPay

end
-- ==== Proof.KBlocks.lean ====
/-
  From the blocks to the whole array.

  Grid point `t` stages rows t·256 … t·256 + 255 of the flattened positions and the whole flattened table, and writes
  back rows t·256 … t·256 + 255 of the flattened result; every row belongs to exactly one point, so the result array ends
  holding, at (n, f), the row function of positions (n, 0), (n, 1) and the table.
-/
import proofs.«162530_j16896401342851_2_alg».proof.Proof.KPay

set_option maxRecDepth 16384

noncomputable section

namespace Cert.KBlocks

open Idealize.ShloMosaic Idealize.ShloMosaic.ValueIdx Idealize.ShloMosaic.TcCoe Idealize.SL.Sem
open Cert.KernelIdeal Cert.KernelIdeal.Gen Cert.Bilinear Cert.KPay
open Idealize.ShloMosaic.Pipeline (Dat)

variable (m : (ℓ : Loc nD τ sig) → Buf (Elt Ideal) ℓ)

/-- The flattened result as one function of the flattened positions and the flattened table. -/
def Gk (Pf : S524288x2.Idx → EReal) (T : S64x8192.Idx → EReal) : S524288x128.Idx → EReal := fun i =>
  rowOut (Pf (ix2 ⟨(i 0).val, (i 0).isLt⟩ (0 : Fin 2))) (Pf (ix2 ⟨(i 0).val, (i 0).isLt⟩ (1 : Fin 2))) T ⟨(i 1).val, (i 1).isLt⟩

/-- The printed index maps over the grid: the position window and the result window move one block of rows per point,
    the table window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s position block is row t·256 + r of the flattened positions. -/
theorem emb0 (t : Fin cfg0.N) (r : Fin 256) (u : Fin 2) :
    ((cfg0.win 0).blk t).view.emb (ix2 r u) = (ix2 ⟨t.val * 256 + r.val, by have := t.isLt; have h : cfg0.N = 2048 := N_0; have := r.isLt; omega⟩ u : S524288x2.Idx) := by
  obtain ⟨e0, e1, -⟩ := idx_facts t
  funext a; apply Fin.ext
  match a with
  | ⟨0, _⟩ => show win0_0.index t (0 : Fin 2) * 256 + 1 * r.val = t.val * 256 + r.val; omega
  | ⟨1, _⟩ => show win0_0.index t (1 : Fin 2) * 2 + 1 * u.val = u.val; omega

/-- The table block is the whole table. -/
theorem emb1 (t : Fin cfg0.N) (y : S64x8192.Idx) : ((cfg0.win 1).blk t).view.emb y = y := by
  obtain ⟨-, -, e0, e1, -⟩ := idx_facts t
  funext a; apply Fin.ext
  match a with
  | ⟨0, _⟩ => show win0_1.index t (0 : Fin 2) * 64 + 1 * (y 0).val = (y 0).val; omega
  | ⟨1, _⟩ => show win0_1.index t (1 : Fin 2) * 8192 + 1 * (y 1).val = (y 1).val; omega

/-- Entry (r, f) of point `t`'s result block is entry (t·256 + r, f) of the flattened result. -/
theorem emb2 (t : Fin cfg0.N) (r : Fin 256) (f : Fin 128) :
    ((cfg0.win 2).blk t).view.emb (ix2 r f) = (ix2 ⟨t.val * 256 + r.val, by have := t.isLt; have h : cfg0.N = 2048 := N_0; have := r.isLt; omega⟩ f : S524288x128.Idx) := by
  obtain ⟨-, -, -, -, e0, e1⟩ := idx_facts t
  funext a; apply Fin.ext
  match a with
  | ⟨0, _⟩ => show win0_2.index t (0 : Fin 2) * 256 + 1 * r.val = t.val * 256 + r.val; omega
  | ⟨1, _⟩ => show win0_2.index t (1 : Fin 2) * 128 + 1 * f.val = f.val; omega

theorem iblk0_apply (c : Dev nD) (t : Fin cfg0.N) (r : Fin 256) (u : Fin 2) :
    iblk m c 0 t (ix2 r u) = V m c main_v0 (ix2 ⟨t.val * 256 + r.val, by have := t.isLt; have h : cfg0.N = 2048 := N_0; have := r.isLt; omega⟩ u) := by
  show V m c main_v0 (((cfg0.win 0).blk t).view.emb (ix2 r u)) = _
  rw [emb0]

theorem iblk1_eq (c : Dev nD) (t : Fin cfg0.N) : iblk m c 1 t = V m c main_v2 := by
  funext y
  show V m c main_v2 (((cfg0.win 1).blk t).view.emb y) = _
  rw [emb1]

/-- What point `t` writes back is block `t` of the whole-array function. -/
theorem flushed_eq (c : Dev nD) (t : Fin cfg0.N) :
    (dats m 0 c).flushed 2 t = ((cfg0.win 2).blk t).view.read (Elt Ideal) (Gk (V m c main_v0) (V m c main_v2)) := by
  show (cfg0.win 2).cut (grid0.coords t) ((dats m 0 c).after 2 t) = _
  rw [after0_2]
  funext j
  obtain ⟨r, f, rfl⟩ : ∃ (r : Fin 256) (f : Fin 128), j = ix2 r f := ⟨j 0, j 1, eq_ix2 j⟩
  show out0_2 (iblk m c 0 t) (iblk m c 1 t) (ix2 r f) = Gk (V m c main_v0) (V m c main_v2) (((cfg0.win 2).blk t).view.emb (ix2 r f))
  rw [emb2]
  refine (out_apply (iblk m c 0 t) (iblk m c 1 t) r f).trans ?_
  rw [iblk0_apply, iblk0_apply, iblk1_eq]
  rfl

/-- An index of the flattened result is in point `t`'s block iff each coordinate is in the block's range. -/
theorem mem_blk (t : Fin cfg0.N) (i : S524288x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v3).slice (win0_2.rect t)).set ↔ _
  rw [View.set_slice_whole, Rect.mem_set_unit]
  exact Iff.rfl

/-- Every entry of the flattened result is in the block of the point its row falls in. -/
theorem cover (i : S524288x128.Idx) : ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 2048 := N_0
  refine ⟨⟨(i 0).val / 256, by omega⟩, flush0_2 _, ?_⟩
  rw [mem_blk]
  obtain ⟨-, -, -, -, e0, e1⟩ := idx_facts ⟨(i 0).val / 256, by omega⟩
  intro a
  match a with
  | ⟨0, _⟩ =>
    show win0_2.index _ (0 : Fin 2) * 256 ≤ (i 0).val ∧ (i 0).val < win0_2.index _ (0 : Fin 2) * 256 + 256
    rw [e0]; show (i 0).val / 256 * 256 ≤ (i 0).val ∧ (i 0).val < (i 0).val / 256 * 256 + 256; omega
  | ⟨1, _⟩ =>
    show win0_2.index _ (1 : Fin 2) * 128 ≤ (i 1).val ∧ (i 1).val < win0_2.index _ (1 : Fin 2) * 128 + 128
    rw [e1]; omega

/-- The flattened result after the region. -/
theorem final (c : Dev nD) : (dats m 0 c).arrAt 2 cfg0.N = Gk (V m c main_v0) (V m c main_v2) :=
  (dats m 0 c).arrAt_eq_of_cover 2 (Gk (V m c main_v0) (V m c main_v2)) (fun t _ => flushed_eq m c t) cover

end Cert.KBlocks

end
-- ==== Proof.KValue.lean ====
/-
  The kernel program's result as one function of its two arguments.

  Before the region the host flattens the positions to [524288, 2] and the table to [64, 8192] (the change of float
  format is the identity on the extended reals); after it the host folds the flattened result back to
  [8, 256, 256, 128]. Entry (b, h, w, f) of the result is therefore the row function of positions (b, h, w, 0),
  (b, h, w, 1) and the table read at (k, g, f).
-/
import proofs.«162530_j16896401342851_2_alg».proof.Proof.KBlocks
import Idealize.ShloMosaic.Lib.StableHlo.Run

set_option maxRecDepth 16384

noncomputable section

namespace Cert.KValue

open Idealize.ShloMosaic Idealize.ShloMosaic.ValueIdx Idealize.ShloMosaic.TcCoe Idealize.SL.Sem
open Cert.KernelIdeal Cert.KernelIdeal.Gen Cert.Bilinear Cert.KPay Cert.KBlocks
open Idealize.ShloMosaic.Pipeline (Dat)

variable (m : (ℓ : Loc nD τ sig) → Buf (Elt Ideal) ℓ) (ρ : Dev nD → PrngReg)

/-- The flattened positions the region finds. -/
theorem V_v0 (c : Dev nD) :
    (V m c main_v0 : S524288x2.Idx → EReal)
      = shapeCast S524288x2 (m ((c : Thread nD τ).loc main_arg0)) shapeCasts_S8x256x256x2_S524288x2 := by
  show StableHlo.after hostOps0 (fun b => m (c, b)) (Proc.devRef .tc main_v0) = _
  after_results
  rfl

/-- The flattened table the region finds. -/
theorem V_v2 (c : Dev nD) :
    (V m c main_v2 : S64x8192.Idx → EReal)
      = shapeCast S64x8192 (m ((c : Thread nD τ).loc main_arg1)) shapeCasts_S64x64x128_S64x8192 := by
  show StableHlo.after hostOps0 (fun b => m (c, b)) (Proc.devRef .tc main_v2) = _
  after_results
  rfl

/-- The folded result after the host's last line. -/
theorem tail_eq (c : Dev nD) :
    (Pipeline.afterTail₀ cfgs (dats m) 0 (V0 m) [hostOps1] c main_v4 : S8x256x256x128.Idx → EReal)
      = shapeCast S8x256x256x128 (Gk (V m c main_v0) (V m c main_v2)) shapeCasts_S524288x128_S8x256x256x128 := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 2).trans (final m c)
  funext i
  show shapeCast S8x256x256x128 (Pipeline.withArrays spec0 c (V0 m c) (fun w => (dats m 0 c).arrAt w cfg0.N) (Proc.devRef .tc (Pipeline.arrRef spec0 2))) shapeCasts_S524288x128_S8x256x256x128 i = _
  rw [e]

theorem flatPos_apply (P : S8x256x256x2.Idx → EReal) (b : Fin 8) (h w : Fin 256) (u : Fin 2) :
    shapeCast S524288x2 P shapeCasts_S8x256x256x2_S524288x2
        (ix2 ⟨(b.val * 256 + h.val) * 256 + w.val, by have := b.isLt; have := h.isLt; have := w.isLt; omega⟩ u)
      = P (ix4 b h w u) := by
  refine shapeCast_apply P _ _ _ ?_
  rw [Shape.rowMajor_val_two, Shape.rowMajor_val_four]
  rfl

/-- The folded result is the row function of the arguments. -/
theorem fold_eq (P : S8x256x256x2.Idx → EReal) (E : S64x64x128.Idx → EReal) :
    shapeCast S8x256x256x128 (Gk (shapeCast S524288x2 P shapeCasts_S8x256x256x2_S524288x2) (tabFlat E)) shapeCasts_S524288x128_S8x256x256x128
      = Gker P E := by
  funext i
  obtain ⟨b, h, w, f, rfl⟩ : ∃ (b : Fin 8) (h w : Fin 256) (f : Fin 128), i = ix4 b h w f := ⟨i 0, i 1, i 2, i 3, eq_ix4 i⟩
  refine (shapeCast_apply _ shapeCasts_S524288x128_S8x256x256x128 (ix4 b h w f)
    (ix2 ⟨(b.val * 256 + h.val) * 256 + w.val, by have := b.isLt; have := h.isLt; have := w.isLt; omega⟩ f) ?_).trans ?_
  · rw [Shape.rowMajor_val_two, Shape.rowMajor_val_four]; rfl
  · show rowOut (shapeCast S524288x2 P _ (ix2 ⟨(b.val * 256 + h.val) * 256 + w.val, _⟩ (0 : Fin 2)))
        (shapeCast S524288x2 P _ (ix2 ⟨(b.val * 256 + h.val) * 256 + w.val, _⟩ (1 : Fin 2))) (tabFlat E) f = _
    rw [flatPos_apply, flatPos_apply]
    rfl

/-- The kernel program's run with its result named: every weakly fair execution terminates with the result buffer at
    the row function of the arguments and the arguments unchanged. -/
theorem run : θ_run defs (onTc (τ := τ) (main (F := Ideal))) ⟨m, fun _ => 0, ρ⟩ fun r => ∀ c : Dev nD,
      r.2.mem ((c.tc : Thread nD τ).loc main_v4) = Gker (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(((h c).2 main_v4 (Pipeline.mem_restRefs_of main_v4 (by decide) (by decide))).trans (tail_eq m c)).trans (by
          rw [V_v0, V_v2]; exact fold_eq _ _),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KValue

end
-- ==== Proof.Blend.lean ====
/-
  The real-number law joining a separable weighting to the four-corner blend.

  A weighting of the 64 grid lines that puts `u` on the line `a` and `d` on the line `b` (their sum where the two
  lines coincide) turns a sum over all lines into the two-term combination `u * t a + d * t b`. Applied along both axes
  with the weights `1 - dx, dx` and `1 - dy, dy`, the double sum over the table is the bilinear blend of its four corner
  entries. The same law holds over the extended reals for a table of real entries, the coercion commuting with finite
  sums and products.
-/
import proofs.«162530_j16896401342851_2_alg».proof.Proof.Spec

noncomputable section

namespace Cert.Blend

/-- The weight on grid line `k`: `u` at the line `a` plus `d` at the line `b`. -/
def wgt (a b : Fin 64) (u d : ℝ) (k : Fin 64) : ℝ := (if k = a then u else 0) + (if k = b then d else 0)

/-- One axis: the weighted sum over all lines is the two-term combination. -/
theorem sum_wgt (a b : Fin 64) (u d : ℝ) (t : Fin 64 → ℝ) :
    ∑ k : Fin 64, wgt a b u d k * t k = u * t a + d * t b := by
  unfold wgt
  simp only [add_mul, ite_mul, zero_mul, Finset.sum_add_distrib, Finset.sum_ite_eq', Finset.mem_univ, if_true]

/-- Both axes: the doubly weighted sum over the table is the bilinear blend of the four corners. -/
theorem sum_wgt2 (T : Fin 64 → Fin 64 → ℝ) (a b a' b' : Fin 64) (dx dy : ℝ) :
    ∑ g : Fin 64, (∑ k : Fin 64, wgt a b (1 - dx) dx k * T k g) * wgt a' b' (1 - dy) dy g
      = (T a a' * (1 - dx) + T b a' * dx) * (1 - dy) + (T a b' * (1 - dx) + T b b' * dx) * dy := by
  have e1 : ∑ g : Fin 64, (∑ k : Fin 64, wgt a b (1 - dx) dx k * T k g) * wgt a' b' (1 - dy) dy g
      = ∑ g : Fin 64, wgt a' b' (1 - dy) dy g * ((1 - dx) * T a g + dx * T b g) :=
    Finset.sum_congr rfl (fun g _ => by rw [sum_wgt a b (1 - dx) dx (fun k => T k g), mul_comm])
  rw [e1]
  exact (sum_wgt a' b' (1 - dy) dy (fun g => (1 - dx) * T a g + dx * T b g)).trans (by ring)

/-- The coercion of the reals into the extended reals commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The two-axis law over the extended reals, for a table of real entries. -/
theorem blend_coe (T : Fin 64 → Fin 64 → ℝ) (a b a' b' : Fin 64) (dx dy : ℝ) :
    ∑ g : Fin 64, (∑ k : Fin 64, ((wgt a b (1 - dx) dx k : ℝ) : EReal) * ((T k g : ℝ) : EReal))
        * ((wgt a' b' (1 - dy) dy g : ℝ) : EReal)
      = (((T a a' * (1 - dx) + T b a' * dx) * (1 - dy) + (T a b' * (1 - dx) + T b b' * dx) * dy : ℝ) : EReal) := by
  rw [← sum_wgt2 T a b a' b' dx dy, coe_sum]
  refine Finset.sum_congr rfl (fun g _ => ?_)
  rw [EReal.coe_mul, coe_sum]
  simp only [EReal.coe_mul]

end Cert.Blend

end
-- ==== Proof.CoordFacts.lean ====
/-
  The scalar facts about one coordinate, at a real position.

  The three float words the programs carry are the reals 0, 1 and 64. A real position `r` therefore scales to the real
  `r * 64` whether the division by the extent 1 is written out or folded away. The floor of a real `s` is the real `⌊s⌋`;
  when `-2^31 ≤ s < 2^31` the integer `⌊s⌋` lies in the range of a signed 32-bit word, so the float-to-integer conversion
  neither clamps nor wraps and the cell's word read back as an integer is `⌊s⌋` itself. Hence the offset inside the cell
  is `s - ⌊s⌋` in both spellings. A position in `[-2^25, 2^25)` scales into `[-2^31, 2^31)`, so there the two spellings of
  the scaled coordinate and of its offset agree.
-/
import proofs.«162530_j16896401342851_2_alg».proof.Proof.Spec

noncomputable section

namespace Cert.CoordFacts

open Idealize.ShloMosaic Cert.Bilinear

/-- The word 0x00000000 denotes 0. -/
theorem zeroW_eq : zeroW = 0 := by
  unfold zeroW; simp [Ideal.ofBits, Ideal.ieee]

/-- The word 0x3F800000 denotes the real 1. -/
theorem oneW_eq : oneW = ((1 : ℝ) : EReal) := by
  unfold oneW; simp [Ideal.ofBits, Ideal.ieee, -EReal.coe_mul]; norm_num

/-- The word 0x42800000 denotes the real 64. -/
theorem gridW_eq : gridW = ((64 : ℝ) : EReal) := by
  unfold gridW; simp [Ideal.ofBits, Ideal.ieee, -EReal.coe_mul]; norm_num

/-- A real position scaled onto the grid, the division by 1 written out: `r * 64`. -/
theorem coordR_real (r : ℝ) : coordR (r : EReal) = ((r * 64 : ℝ) : EReal) := by
  unfold coordR
  rw [zeroW_eq, oneW_eq, gridW_eq, Ideal.div_coe (one_ne_zero), sub_zero]
  rw [← EReal.coe_mul, ← EReal.coe_mul]
  norm_num

/-- A real position scaled onto the grid, the division folded away: `r * 64`. -/
theorem coordK_real (r : ℝ) : coordK (r : EReal) = ((r * 64 : ℝ) : EReal) := by
  unfold coordK
  rw [zeroW_eq, gridW_eq, sub_zero, ← EReal.coe_mul]

/-- The floor of a real is the real `⌊s⌋`. -/
theorem fl_real (s : ℝ) : fl (s : EReal) = (((⌊s⌋ : ℤ) : ℝ) : EReal) := rfl

/-- In the range of a signed 32-bit word the conversion does not clamp or wrap: the cell's word reads back as `⌊s⌋`. -/
theorem cell_toInt (s : ℝ) (h1 : -(2 ^ 31 : ℝ) ≤ s) (h2 : s < (2 ^ 31 : ℝ)) : (cell (s : EReal)).toInt = ⌊s⌋ := by
  have e31 : (2 : ℝ) ^ 31 = 2147483648 := by norm_num
  rw [e31] at h1 h2
  have hlo : (-(2 ^ 31) : ℤ) ≤ ⌊s⌋ := by
    rw [Int.le_floor]; push_cast; exact h1
  have hhi : ⌊s⌋ < (2 ^ 31 : ℤ) := by
    rw [Int.floor_lt]; push_cast; exact h2
  have hfc : ⌊((⌊s⌋ : ℤ) : ℝ)⌋ = ⌊s⌋ := Int.floor_intCast _
  have hcc : ⌈((⌊s⌋ : ℤ) : ℝ)⌉ = ⌊s⌋ := Int.ceil_intCast _
  unfold cell
  rw [fl_real, Ideal.fptosi, Ideal.toIntClamped_coe, hfc, hcc, ite_self]
  have hmin : min (((2 ^ (32 - 1) : ℕ) : ℤ) - 1) ⌊s⌋ = ⌊s⌋ := by
    apply min_eq_right; norm_num; omega
  have hmax : max (-((2 ^ (32 - 1) : ℕ) : ℤ)) ⌊s⌋ = ⌊s⌋ := by
    apply max_eq_right; norm_num; omega
  rw [hmin, hmax, BitVec.toInt_ofInt]
  have : (2 : ℤ) ^ 32 = 4294967296 := by norm_num
  rw [Int.bmod_eq_of_le] <;> norm_num <;> omega

/-- The offset inside the cell against the cell's word converted back is `s - ⌊s⌋`. -/
theorem fracR_real (s : ℝ) (h1 : -(2 ^ 31 : ℝ) ≤ s) (h2 : s < (2 ^ 31 : ℝ)) :
    fracR (s : EReal) = ((s - (⌊s⌋ : ℝ) : ℝ) : EReal) := by
  unfold fracR
  rw [cell_toInt s h1 h2, ← EReal.coe_sub]

/-- The offset inside the cell against the floor itself is `s - ⌊s⌋`. -/
theorem fracK_real (s : ℝ) : fracK (s : EReal) = ((s - (⌊s⌋ : ℝ) : ℝ) : EReal) := by
  unfold fracK
  rw [fl_real, ← EReal.coe_sub]

/-- For a position in `[-2^25, 2^25)` the two spellings of the scaled coordinate and of its offset agree. -/
theorem frac_agree (r : ℝ) (h1 : -(2 ^ 25 : ℝ) ≤ r) (h2 : r < (2 ^ 25 : ℝ)) :
    fracR (coordR (r : EReal)) = fracK (coordK (r : EReal)) ∧ coordR (r : EReal) = coordK (r : EReal) := by
  have hlo : -(2 ^ 31 : ℝ) ≤ r * 64 := by nlinarith
  have hhi : r * 64 < (2 ^ 31 : ℝ) := by nlinarith
  rw [coordR_real, coordK_real, fracR_real _ hlo hhi, fracK_real]
  exact ⟨rfl, rfl⟩

end Cert.CoordFacts

end
-- ==== Proof.KBridge.lean ====
/-
  The law joining the two programs.

  For real positions and a real table, each axis' 64 weights are zero except at the lower and the upper grid line, so
  the kernel's double sum over the grid lines is the bilinear blend of the table's four corner rows; and for a position
  in [-2^25, 2^25) the cell's word converted back to a float is the floor itself, so the reference's offset is the
  kernel's. Hence the two whole-array functions agree.
-/
import proofs.«162530_j16896401342851_2_alg».proof.Proof.KPay
import proofs.«162530_j16896401342851_2_alg».proof.Proof.Blend
import proofs.«162530_j16896401342851_2_alg».proof.Proof.CoordFacts

noncomputable section

namespace Cert.KBridge

open Idealize.ShloMosaic Idealize.ShloMosaic.ValueIdx Cert.KernelIdeal Cert.Bilinear Cert.KPay
open scoped BigOperators

/-- Grid line `k` equals a clipped word exactly when it is the row that word selects. -/
theorem cmpi_eq_clip (k : Fin 64) (w : BitVec 32) :
    IntOp.cmpi .eq (BitVec.ofNat 32 k.val) (clip w) = if k = row (clip w) then 1#1 else 0#1 := by
  have hv := row_clip_val w
  have hlt : (clip w).toNat < 64 := by rw [← hv]; exact (row (clip w)).isLt
  have hk64 := k.isLt
  unfold IntOp.cmpi
  by_cases hk : k = row (clip w)
  · rw [if_pos hk]
    have e : BitVec.ofNat 32 k.val = clip w := by
      apply BitVec.eq_of_toNat_eq
      rw [BitVec.toNat_ofNat, hk, hv]
      omega
    simp [e]
  · rw [if_neg hk]
    have e : BitVec.ofNat 32 k.val ≠ clip w := by
      intro e
      apply hk; apply Fin.ext; rw [hv, ← e, BitVec.toNat_ofNat]; omega
    show BitVec.ofBool (BitVec.ofNat 32 k.val == clip w) = 0#1
    rw [beq_eq_false_iff_ne.mpr e]; rfl

/-- One axis' weight at a grid line, for a real offset: the real weight that puts `1 - d` on the lower line and `d` on
    the upper one. -/
theorem wgtW_real (w1 w2 : BitVec 32) (d : ℝ) (k : Fin 64) :
    wgtW (clip w1) (clip w2) (d : EReal) k
      = ((Blend.wgt (row (clip w1)) (row (clip w2)) (1 - d) d k : ℝ) : EReal) := by
  unfold wgtW Blend.wgt
  rw [cmpi_eq_clip, cmpi_eq_clip, CoordFacts.oneW_eq, CoordFacts.zeroW_eq, EReal.coe_add]
  congr 1
  · by_cases h : k = row (clip w1)
    · rw [if_pos h, if_pos h, select_one, EReal.coe_sub]
    · rw [if_neg h, if_neg h, select_zero, EReal.coe_zero]
  · by_cases h : k = row (clip w2)
    · rw [if_pos h, if_pos h, select_one]
    · rw [if_neg h, if_neg h, select_zero, EReal.coe_zero]

/-- The flattened table at (k, g·128 + f) is the table at (k, g, f). -/
theorem tabFlat_apply (E : S64x64x128.Idx → EReal) (k g : Fin 64) (f : Fin 128) :
    tabFlat E (ix2 k ⟨g.val * 128 + f.val, by have := g.isLt; have := f.isLt; omega⟩) = E (ix3 k g f) := by
  unfold tabFlat
  refine shapeCast_apply E _ _ _ ?_
  rw [Shape.rowMajor_val_two, Shape.rowMajor_val_three]
  show (k.val * 64 + g.val) * 128 + f.val = k.val * 8192 + (g.val * 128 + f.val)
  ring

/-- One entry of the kernel's block for real positions and a real table: the blend of the four corner rows. -/
theorem rowOut_real (p q : ℝ) (E : S64x64x128.Idx → EReal) (EE : S64x64x128.Idx → ℝ) (hE : ∀ j, E j = ((EE j : ℝ) : EReal))
    (f : Fin 128) :
    rowOut (p : EReal) (q : EReal) (tabFlat E) f
      = blend E (row (lo (coordK (p : EReal)))) (row (hi (coordK (p : EReal)))) (row (lo (coordK (q : EReal))))
          (row (hi (coordK (q : EReal)))) (fracK (coordK (p : EReal))) (fracK (coordK (q : EReal))) f := by
  unfold rowOut blend
  rw [CoordFacts.coordK_real p, CoordFacts.coordK_real q, CoordFacts.fracK_real, CoordFacts.fracK_real]
  unfold lo hi
  simp only [wgtW_real, tabFlat_apply, hE]
  rw [Blend.blend_coe (fun k g => EE (ix3 k g f))]
  rw [CoordFacts.oneW_eq]
  push_cast
  rfl

/-- THE LAW: for positions that are reals in [-2^25, 2^25) and a table of reals, the kernel's whole result is the
    reference's. -/
theorem Gker_eq_Gref (P : S8x256x256x2.Idx → EReal) (E : S64x64x128.Idx → EReal)
    (hP : ∀ i, ∃ r : ℝ, P i = (r : EReal) ∧ -(2 ^ 25 : ℝ) ≤ r ∧ r < (2 ^ 25 : ℝ))
    (hE : ∀ j, ∃ r : ℝ, E j = (r : EReal)) :
    Gker P E = Gref P E := by
  choose EE hEE using hE
  funext i
  obtain ⟨b, h, w, f, rfl⟩ : ∃ (b : Fin 8) (h w : Fin 256) (f : Fin 128), i = ix4 b h w f := ⟨i 0, i 1, i 2, i 3, eq_ix4 i⟩
  obtain ⟨p, hp, hp1, hp2⟩ := hP (ix4 b h w (0 : Fin 2))
  obtain ⟨q, hq, hq1, hq2⟩ := hP (ix4 b h w (1 : Fin 2))
  obtain ⟨ap1, ap2⟩ := CoordFacts.frac_agree p hp1 hp2
  obtain ⟨aq1, aq2⟩ := CoordFacts.frac_agree q hq1 hq2
  show rowOut (P (ix4 b h w (0 : Fin 2))) (P (ix4 b h w (1 : Fin 2))) (tabFlat E) f
    = blend E (row (lo (coordR (P (ix4 b h w (0 : Fin 2)))))) (row (hi (coordR (P (ix4 b h w (0 : Fin 2))))))
        (row (lo (coordR (P (ix4 b h w (1 : Fin 2)))))) (row (hi (coordR (P (ix4 b h w (1 : Fin 2))))))
        (fracR (coordR (P (ix4 b h w (0 : Fin 2))))) (fracR (coordR (P (ix4 b h w (1 : Fin 2))))) f
  rw [hp, hq, ap1, aq1, ap2, aq2]
  exact rowOut_real p q E EE hEE f

end Cert.KBridge

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.PreFacts.lean ====
/-
  The precondition, decoded.

  The test is the conjunction of three "all entries" reductions: every position has absolute value strictly below +∞,
  every table entry has absolute value strictly below +∞, and every position `x` satisfies `-2^25 ≤ x` and `x < 2^25`
  (the words 0xCC000000 and 0x4C000000 denote the reals `-2^25` and `2^25`). The test being 1, each of the three
  reductions is 1, so each entry's comparison is 1: every position is a real number in `[-2^25, 2^25)` and every table
  entry is a real number.
-/
import proofs.«162530_j16896401342851_2_alg».proof.Pre_finite_inputs
import proofs.«162530_j16896401342851_2_alg».proof.Proof.LibFiniteAll
import Idealize.ShloMosaic.Lib.ReduceAll
import Idealize.ShloMosaic.Lib.ValueIdx

noncomputable section

namespace Cert.PreFacts

open Idealize.ShloMosaic Idealize.ShloMosaic.ValueIdx Cert.Pre_finite_inputs

/-- The word 0xCC000000 denotes the real `-2^25 = -33554432`. -/
theorem lo_eq : Ideal.ofBits .f32 0xCC000000#32 = ((-33554432 : ℝ) : EReal) := by
  simp [Ideal.ofBits, Ideal.ieee, -EReal.coe_mul]; norm_num

/-- The word 0x4C000000 denotes the real `2^25 = 33554432`. -/
theorem hi_eq : Ideal.ofBits .f32 0x4C000000#32 = ((33554432 : ℝ) : EReal) := by
  simp [Ideal.ofBits, Ideal.ieee, -EReal.coe_mul]; norm_num

/-- A comparison word that is 1 says the compared proposition holds. -/
theorem of_ofBool_decide {p : Prop} [Decidable p] (h : BitVec.ofBool (decide p) = 1#1) : p := by
  by_contra hp
  rw [decide_eq_false hp] at h
  exact absurd h (by decide)

/-- A real number that passes both comparisons lies in `[-2^25, 2^25)`. -/
theorem range_of_cmp (r : ℝ)
    (h1 : Ideal.cmp .oge (r : EReal) (Ideal.ofBits .f32 0xCC000000#32) = 1#1)
    (h2 : Ideal.cmp .olt (r : EReal) (Ideal.ofBits .f32 0x4C000000#32) = 1#1) :
    -(2 ^ 25 : ℝ) ≤ r ∧ r < (2 ^ 25 : ℝ) := by
  rw [lo_eq] at h1; rw [hi_eq] at h2
  have a1 : ((-33554432 : ℝ) : EReal) ≤ (r : EReal) := of_ofBool_decide h1
  have a2 : (r : EReal) < ((33554432 : ℝ) : EReal) := of_ofBool_decide h2
  rw [EReal.coe_le_coe_iff] at a1; rw [EReal.coe_lt_coe_iff] at a2
  have e : (2 : ℝ) ^ 25 = 33554432 := by norm_num
  rw [e]; exact ⟨a1, a2⟩

/-- The precondition being 1 everywhere: every position is a real number in `[-2^25, 2^25)`, every table entry a real number. -/
theorem pre_decode [Cert.Pre_finite_inputs.Facts] (x0 : FVec Ideal Cert.Pre_finite_inputs.S8x256x256x2 .f32)
    (x1 : FVec Ideal Cert.Pre_finite_inputs.S64x64x128 .f32)
    (h : Cert.Pre_finite_inputs.fn (F := Ideal) x0 x1 = fun _ => 1#1) :
    (∀ i, ∃ r : ℝ, x0 i = (r : EReal) ∧ -(2 ^ 25 : ℝ) ≤ r ∧ r < (2 ^ 25 : ℝ)) ∧ (∀ j, ∃ r : ℝ, x1 j = (r : EReal)) := by
  have h0 := congrFun h ix0
  unfold Cert.Pre_finite_inputs.fn at h0
  dsimp only at h0
  obtain ⟨h01, hC⟩ := IntOp.andi_eq_one.1 h0
  obtain ⟨hA, hB⟩ := IntOp.andi_eq_one.1 h01
  refine ⟨fun i => ?_, fun j => ?_⟩
  · obtain ⟨r, hr⟩ := Cert.Lib.FiniteAll.real_of_all x0 Facts.bcast_S_S8x256x256x2
      Facts.reducesTo_S8x256x256x2_S_d0_1_2_3 Facts.h_S_ hA i
    have hCi := Host.reduce_andi_all _ _ Facts.reducesTo_S8x256x256x2_S_d0_1_2_3 Facts.h_S_ ix0 hC i
    obtain ⟨c1, c2⟩ := IntOp.andi_eq_one.1 hCi
    have d1 : Ideal.cmp .oge (x0 i) (Ideal.ofBits .f32 0xCC000000#32) = 1#1 := c1
    have d2 : Ideal.cmp .olt (x0 i) (Ideal.ofBits .f32 0x4C000000#32) = 1#1 := c2
    rw [hr] at d1 d2
    exact ⟨r, hr, range_of_cmp r d1 d2⟩
  · exact Cert.Lib.FiniteAll.real_of_all x1 Facts.bcast_S_S64x64x128
      Facts.reducesTo_S64x64x128_S_d0_1_2 Facts.h_S_ hB j

end Cert.PreFacts

end
-- ==== Proof.RefGather.lean ====
/-
  Two layout operations of the reference read at an index, stated once over variables of the literal shapes.

  The gather: from a table `E : [64, 64, 128]` at an array of index pairs `I : [8, 256, 256, 2]`, with the two leading
  table axes collapsed and addressed by the pair and the last axis carried whole, the result at `(b, h, w, f)` is the
  table at `(I[b,h,w,0], I[b,h,w,1], f)`, each component of the pair read as a signed integer and clamped into
  `[0, 63]`.

  The join of two one-column arrays `[8, 256, 256, 1]` along the last axis: column 0 of the result is the first array,
  column 1 the second.
-/
import Idealize.ShloMosaic.Lib.ValueIdx
import Idealize.ShloMosaic.Lib.Pipeline.Value

noncomputable section

namespace Cert.RefRead

open Idealize.ShloMosaic Idealize.ShloMosaic.ValueIdx

abbrev GTab : Shape := ⟨3, ![64, 64, 128]⟩
abbrev GPair : Shape := ⟨4, ![8, 256, 256, 2]⟩
abbrev GCol : Shape := ⟨4, ![8, 256, 256, 1]⟩
abbrev GOut : Shape := ⟨4, ![8, 256, 256, 128]⟩

/-- The gather's dimension numbers: the result's last axis is the table's last axis carried whole, the table's two
    leading axes are collapsed and addressed by the two components of the index pair on the indices' last axis. -/
abbrev rowDims (wf : GatherDims.WF GTab GPair GOut [3] [0, 1] [] [0, 1] [] 3 ![1, 1, 128]) :
    GatherDims GTab GPair GOut where
  offsetDims := [3]
  collapsedSliceDims := [0, 1]
  operandBatchingDims := []
  startIndicesBatchingDims := []
  startIndexMap := [0, 1]
  indexVectorDim := 3
  sliceSizes := ![1, 1, 128]
  wf := wf

/-- A component of an index pair read signed and clamped into `[0, 63]`. -/
def clampRow {w : Nat} (x : BitVec w) : Fin 64 := ⟨min x.toInt.toNat 63, by omega⟩

/-- THE GATHER READ AT `(b, h, w, f)`: the table at the clamped index pair and `f`. -/
theorem gather_row_apply {α : Type} {w : Nat}
    (wf : GatherDims.WF GTab GPair GOut [3] [0, 1] [] [0, 1] [] 3 ![1, 1, 128])
    (E : GTab.Idx → α) (I : IVec GPair w) (b : Fin 8) (h wd : Fin 256) (f : Fin 128) :
    Host.gather (rowDims wf) E I (ix4 b h wd f)
      = E (ix3 (clampRow (I (ix4 b h wd 0))) (clampRow (I (ix4 b h wd 1))) f) := by
  have m0 : (0 : Fin 3) ∈ ([0, 1] : List (Fin 3)) := by decide
  have m1 : (1 : Fin 3) ∈ ([0, 1] : List (Fin 3)) := by decide
  have m2 : ¬ (2 : Fin 3) ∈ ([0, 1] : List (Fin 3)) := by decide
  have k2 : (2 : Fin 3) ∈ GTab.kept (([0, 1] : List (Fin 3)) ++ []) := by decide
  unfold Host.gather
  congr 1
  funext a
  refine Fin.ext ?_
  show (rowDims wf).start (ix4 b h wd f) I a + (rowDims wf).batchCoord (ix4 b h wd f) a
    + (rowDims wf).offCoord (ix4 b h wd f) a = _
  rw [GatherDims.batchCoord_eq_zero _ _ _ List.not_mem_nil]
  match a with
  | ⟨0, _⟩ =>
    show (rowDims wf).start (ix4 b h wd f) I (0 : Fin 3) + 0 + (rowDims wf).offCoord (ix4 b h wd f) (0 : Fin 3) = _
    rw [GatherDims.offCoord_eq_zero _ _ _ (fun hm => ((GatherDims.mem_sKept _ _).mp hm).1 m0)]
    simp only [Nat.add_zero]
    unfold GatherDims.start
    rw [dif_pos (show (0 : Fin 3) ∈ (rowDims wf).startIndexMap from m0)]
    have hsi : (rowDims wf).siIdx (ix4 b h wd f) ⟨List.idxOf (0 : Fin 3) (rowDims wf).startIndexMap,
        List.idxOf_lt_length_iff.2 m0⟩ = ix4 b h wd 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show (rowDims wf).start (ix4 b h wd f) I (1 : Fin 3) + 0 + (rowDims wf).offCoord (ix4 b h wd f) (1 : Fin 3) = _
    rw [GatherDims.offCoord_eq_zero _ _ _ (fun hm => ((GatherDims.mem_sKept _ _).mp hm).1 m1)]
    simp only [Nat.add_zero]
    unfold GatherDims.start
    rw [dif_pos (show (1 : Fin 3) ∈ (rowDims wf).startIndexMap from m1)]
    have hsi : (rowDims wf).siIdx (ix4 b h wd f) ⟨List.idxOf (1 : Fin 3) (rowDims wf).startIndexMap,
        List.idxOf_lt_length_iff.2 m1⟩ = ix4 b h wd 1 := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show (rowDims wf).start (ix4 b h wd f) I (2 : Fin 3) + 0 + (rowDims wf).offCoord (ix4 b h wd f) (2 : Fin 3) = _
    unfold GatherDims.start
    rw [dif_neg (show ¬ (2 : Fin 3) ∈ (rowDims wf).startIndexMap from m2)]
    unfold GatherDims.offCoord
    rw [dif_pos (show (2 : Fin 3) ∈ (rowDims wf).sKept from k2)]
    simp only [Nat.zero_add]
    rfl

/-- Column 0 of the join of two one-column arrays is the first array. -/
theorem concat_cols_apply_zero {α : Type} (hc : Shape.Concatenates [GCol, GCol] GPair 3) (A B : GCol.Idx → α)
    (b : Fin 8) (h wd : Fin 256) :
    concatenate GPair 3 [⟨GCol, A⟩, ⟨GCol, B⟩] hc (ix4 b h wd 0) = A (ix4 b h wd 0) :=
  concatenate_pair_apply_left (t := GPair) (s₁ := GCol) (s₂ := GCol) (3 : Fin 4) A B hc
    (ix4 b h wd (0 : Fin 2)) rfl (ix4 b h wd (0 : Fin 1)) (fun c => match c with
    | ⟨0, _⟩ => rfl
    | ⟨1, _⟩ => rfl
    | ⟨2, _⟩ => rfl
    | ⟨3, _⟩ => rfl)

/-- Column 1 of the join of two one-column arrays is the second array. -/
theorem concat_cols_apply_one {α : Type} (hc : Shape.Concatenates [GCol, GCol] GPair 3) (A B : GCol.Idx → α)
    (b : Fin 8) (h wd : Fin 256) :
    concatenate GPair 3 [⟨GCol, A⟩, ⟨GCol, B⟩] hc (ix4 b h wd 1) = B (ix4 b h wd 0) :=
  concatenate_pair_apply_right (t := GPair) (s₁ := GCol) (s₂ := GCol) (3 : Fin 4) A B hc
    (ix4 b h wd (1 : Fin 2)) rfl rfl (ix4 b h wd (0 : Fin 1)) (fun c hne => match c, hne with
    | ⟨0, _⟩, _ => rfl
    | ⟨1, _⟩, _ => rfl
    | ⟨2, _⟩, _ => rfl
    | ⟨3, _⟩, hne => absurd rfl hne) (by show 0 + 1 = 1; rfl)

end Cert.RefRead

end
-- ==== Proof.RefRead.lean ====
/-
  The reference program read at an index.

  Every operation of the reference but the joins of index columns and the gathers reads, at an index, its operands at
  one index each; chaining those readings from the result down to the two arguments, with the join and the gather read
  by hand, the result at `(b, h, w, f)` is the bilinear blend of four table rows: the positions' two components scaled
  onto the grid, the cell of each (the floor as a signed word), the cell and the cell plus one clipped into `[0, 63]`,
  and the offset inside the cell as the weight. Negative-index normalisation before each gather (add 64 where the word
  is negative) does nothing to a clipped word, which is never negative.
-/
import proofs.«162530_j16896401342851_2_alg».proof.Proof.ReadP
import proofs.«162530_j16896401342851_2_alg».proof.Proof.Spec
import proofs.«162530_j16896401342851_2_alg».proof.Proof.RefGather

noncomputable section

namespace Cert.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where the layout operations read -/

/-- The reshape `[8, 256, 256, 1] → [8, 256, 256]` reads `(b, h, w)` at `(b, h, w, 0)`. -/
theorem idx_v1_ix (b : Fin 8) (h w : Fin 256) : idx_main_v1 (ix3 b h w) = ix4 b h w (0 : Fin 1) := by
  have hb := b.isLt; have hh := h.isLt; have hw := w.isLt
  funext a; refine Fin.ext ?_
  match a with
  | ⟨0, _⟩ => show ((b.val * 256 + h.val) * 256 + w.val) / 65536 = b.val; omega
  | ⟨1, _⟩ => show ((b.val * 256 + h.val) * 256 + w.val) / 256 % 256 = h.val; omega
  | ⟨2, _⟩ => show ((b.val * 256 + h.val) * 256 + w.val) / 1 % 256 = w.val; omega
  | ⟨3, _⟩ => rfl

/-- The reshape `[8, 256, 256, 1] → [8, 256, 256]` reads `(b, h, w)` at `(b, h, w, 0)`. -/
theorem idx_v9_ix (b : Fin 8) (h w : Fin 256) : idx_main_v9 (ix3 b h w) = ix4 b h w (0 : Fin 1) := by
  have hb := b.isLt; have hh := h.isLt; have hw := w.isLt
  funext a; refine Fin.ext ?_
  match a with
  | ⟨0, _⟩ => show ((b.val * 256 + h.val) * 256 + w.val) / 65536 = b.val; omega
  | ⟨1, _⟩ => show ((b.val * 256 + h.val) * 256 + w.val) / 256 % 256 = h.val; omega
  | ⟨2, _⟩ => show ((b.val * 256 + h.val) * 256 + w.val) / 1 % 256 = w.val; omega
  | ⟨3, _⟩ => rfl

/-- The slice of component 0 reads `(b, h, w, 0)` at `(b, h, w, 0)`. -/
theorem idx_v0_ix (b : Fin 8) (h w : Fin 256) : idx_main_v0 (ix4 b h w (0 : Fin 1)) = ix4 b h w (0 : Fin 2) := by
  funext a; refine Fin.ext ?_
  match a with
  | ⟨0, _⟩ => rfl
  | ⟨1, _⟩ => rfl
  | ⟨2, _⟩ => rfl
  | ⟨3, _⟩ => rfl

/-- The slice of component 1 reads `(b, h, w, 0)` at `(b, h, w, 1)`. -/
theorem idx_v8_ix (b : Fin 8) (h w : Fin 256) : idx_main_v8 (ix4 b h w (0 : Fin 1)) = ix4 b h w (1 : Fin 2) := by
  funext a; refine Fin.ext ?_
  match a with
  | ⟨0, _⟩ => rfl
  | ⟨1, _⟩ => rfl
  | ⟨2, _⟩ => rfl
  | ⟨3, _⟩ => rfl

theorem idx_v38_ix (b : Fin 8) (h w : Fin 256) : idx_main_v38 (ix4 b h w (0 : Fin 1)) = ix3 b h w := by
  funext a; refine Fin.ext ?_
  match a with
  | ⟨0, _⟩ => rfl
  | ⟨1, _⟩ => rfl
  | ⟨2, _⟩ => rfl

theorem idx_v39_ix (b : Fin 8) (h w : Fin 256) : idx_main_v39 (ix4 b h w (0 : Fin 1)) = ix3 b h w := by
  funext a; refine Fin.ext ?_
  match a with
  | ⟨0, _⟩ => rfl
  | ⟨1, _⟩ => rfl
  | ⟨2, _⟩ => rfl

theorem idx_v52_ix (b : Fin 8) (h w : Fin 256) : idx_main_v52 (ix4 b h w (0 : Fin 1)) = ix3 b h w := by
  funext a; refine Fin.ext ?_
  match a with
  | ⟨0, _⟩ => rfl
  | ⟨1, _⟩ => rfl
  | ⟨2, _⟩ => rfl

theorem idx_v53_ix (b : Fin 8) (h w : Fin 256) : idx_main_v53 (ix4 b h w (0 : Fin 1)) = ix3 b h w := by
  funext a; refine Fin.ext ?_
  match a with
  | ⟨0, _⟩ => rfl
  | ⟨1, _⟩ => rfl
  | ⟨2, _⟩ => rfl

theorem idx_v66_ix (b : Fin 8) (h w : Fin 256) : idx_main_v66 (ix4 b h w (0 : Fin 1)) = ix3 b h w := by
  funext a; refine Fin.ext ?_
  match a with
  | ⟨0, _⟩ => rfl
  | ⟨1, _⟩ => rfl
  | ⟨2, _⟩ => rfl

theorem idx_v67_ix (b : Fin 8) (h w : Fin 256) : idx_main_v67 (ix4 b h w (0 : Fin 1)) = ix3 b h w := by
  funext a; refine Fin.ext ?_
  match a with
  | ⟨0, _⟩ => rfl
  | ⟨1, _⟩ => rfl
  | ⟨2, _⟩ => rfl

theorem idx_v80_ix (b : Fin 8) (h w : Fin 256) : idx_main_v80 (ix4 b h w (0 : Fin 1)) = ix3 b h w := by
  funext a; refine Fin.ext ?_
  match a with
  | ⟨0, _⟩ => rfl
  | ⟨1, _⟩ => rfl
  | ⟨2, _⟩ => rfl

theorem idx_v81_ix (b : Fin 8) (h w : Fin 256) : idx_main_v81 (ix4 b h w (0 : Fin 1)) = ix3 b h w := by
  funext a; refine Fin.ext ?_
  match a with
  | ⟨0, _⟩ => rfl
  | ⟨1, _⟩ => rfl
  | ⟨2, _⟩ => rfl

theorem idx_v86_ix (b : Fin 8) (h w : Fin 256) : idx_main_v86 (ix4 b h w (0 : Fin 1)) = ix3 b h w := by
  funext a; refine Fin.ext ?_
  match a with
  | ⟨0, _⟩ => rfl
  | ⟨1, _⟩ => rfl
  | ⟨2, _⟩ => rfl

theorem idx_v89_ix (b : Fin 8) (h w : Fin 256) : idx_main_v89 (ix4 b h w (0 : Fin 1)) = ix3 b h w := by
  funext a; refine Fin.ext ?_
  match a with
  | ⟨0, _⟩ => rfl
  | ⟨1, _⟩ => rfl
  | ⟨2, _⟩ => rfl

theorem idx_v92_ix (b : Fin 8) (h w : Fin 256) (f : Fin 128) : idx_main_v92 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

theorem idx_v94_ix (b : Fin 8) (h w : Fin 256) (f : Fin 128) : idx_main_v94 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

theorem idx_v99_ix (b : Fin 8) (h w : Fin 256) (f : Fin 128) : idx_main_v99 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

theorem idx_v101_ix (b : Fin 8) (h w : Fin 256) (f : Fin 128) : idx_main_v101 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

theorem idx_v106_ix (b : Fin 8) (h w : Fin 256) (f : Fin 128) : idx_main_v106 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

theorem idx_v108_ix (b : Fin 8) (h w : Fin 256) (f : Fin 128) : idx_main_v108 (ix4 b h w f) = ix4 b h w (0 : Fin 1) := by
  funext a; refine Fin.ext ?_
  match a with
  | ⟨0, _⟩ => rfl
  | ⟨1, _⟩ => rfl
  | ⟨2, _⟩ => rfl
  | ⟨3, _⟩ => rfl

/-! ## The scaled coordinates, the cells and the clipped grid lines -/

/-- The first scaled coordinate. -/
theorem v7_at (x0 : (⟨S8x256x256x2, .f32⟩ : BufTy).Contents (Elt Ideal)) (b : Fin 8) (h w : Fin 256) :
    val_main_v7 (F := Ideal) x0 (ix3 b h w) = Bilinear.coordR (x0 (ix4 b h w (0 : Fin 2))) := by
  rw [val_main_v7_apply, val_main_v5_apply, val_main_v3_apply, val_main_v1_apply, idx_v1_ix, val_main_v0_apply, idx_v0_ix,
    val_main_v2_apply, val_main_cst_apply, val_main_v4_apply, val_main_cst_0_apply, val_main_v6_apply, val_main_cst_1_apply]
  rfl

/-- The second scaled coordinate. -/
theorem v15_at (x0 : (⟨S8x256x256x2, .f32⟩ : BufTy).Contents (Elt Ideal)) (b : Fin 8) (h w : Fin 256) :
    val_main_v15 (F := Ideal) x0 (ix3 b h w) = Bilinear.coordR (x0 (ix4 b h w (1 : Fin 2))) := by
  rw [val_main_v15_apply, val_main_v13_apply, val_main_v11_apply, val_main_v9_apply, idx_v9_ix, val_main_v8_apply, idx_v8_ix,
    val_main_v10_apply, val_main_cst_2_apply, val_main_v12_apply, val_main_cst_3_apply, val_main_v14_apply, val_main_cst_4_apply]
  rfl

/-- The first cell. -/
theorem v17_at (x0 : (⟨S8x256x256x2, .f32⟩ : BufTy).Contents (Elt Ideal)) (b : Fin 8) (h w : Fin 256) :
    val_main_v17 (F := Ideal) x0 (ix3 b h w) = Bilinear.cell (Bilinear.coordR (x0 (ix4 b h w (0 : Fin 2)))) := by
  rw [val_main_v17_apply, val_main_v16_apply, v7_at]
  rfl

/-- The second cell. -/
theorem v19_at (x0 : (⟨S8x256x256x2, .f32⟩ : BufTy).Contents (Elt Ideal)) (b : Fin 8) (h w : Fin 256) :
    val_main_v19 (F := Ideal) x0 (ix3 b h w) = Bilinear.cell (Bilinear.coordR (x0 (ix4 b h w (1 : Fin 2)))) := by
  rw [val_main_v19_apply, val_main_v18_apply, v15_at]
  rfl

/-- The first coordinate's upper grid line. -/
theorem v22_at (x0 : (⟨S8x256x256x2, .f32⟩ : BufTy).Contents (Elt Ideal)) (b : Fin 8) (h w : Fin 256) :
    val_main_v22 (F := Ideal) x0 (ix3 b h w) = Bilinear.hi (Bilinear.coordR (x0 (ix4 b h w (0 : Fin 2)))) := by
  rw [val_main_v22_apply, val_main_call0_v4_apply, val_main_call0_v3_apply, val_main_c_6_apply, val_main_call0_v2_apply,
    val_main_call0_v1_apply, val_main_call0_v0_apply, val_main_c_5_apply, val_main_v21_apply, val_main_v20_apply,
    val_main_c_apply, v17_at]
  rfl

/-- The second coordinate's upper grid line. -/
theorem v25_at (x0 : (⟨S8x256x256x2, .f32⟩ : BufTy).Contents (Elt Ideal)) (b : Fin 8) (h w : Fin 256) :
    val_main_v25 (F := Ideal) x0 (ix3 b h w) = Bilinear.hi (Bilinear.coordR (x0 (ix4 b h w (1 : Fin 2)))) := by
  rw [val_main_v25_apply, val_main_call1_v4_apply, val_main_call1_v3_apply, val_main_c_9_apply, val_main_call1_v2_apply,
    val_main_call1_v1_apply, val_main_call1_v0_apply, val_main_c_8_apply, val_main_v24_apply, val_main_v23_apply,
    val_main_c_7_apply, v19_at]
  rfl

/-- The first coordinate's lower grid line. -/
theorem v26_at (x0 : (⟨S8x256x256x2, .f32⟩ : BufTy).Contents (Elt Ideal)) (b : Fin 8) (h w : Fin 256) :
    val_main_v26 (F := Ideal) x0 (ix3 b h w) = Bilinear.lo (Bilinear.coordR (x0 (ix4 b h w (0 : Fin 2)))) := by
  rw [val_main_v26_apply, val_main_call2_v4_apply, val_main_call2_v3_apply, val_main_c_11_apply, val_main_call2_v2_apply,
    val_main_call2_v1_apply, val_main_call2_v0_apply, val_main_c_10_apply, v17_at]
  rfl

/-- The second coordinate's lower grid line. -/
theorem v27_at (x0 : (⟨S8x256x256x2, .f32⟩ : BufTy).Contents (Elt Ideal)) (b : Fin 8) (h w : Fin 256) :
    val_main_v27 (F := Ideal) x0 (ix3 b h w) = Bilinear.lo (Bilinear.coordR (x0 (ix4 b h w (1 : Fin 2)))) := by
  rw [val_main_v27_apply, val_main_call3_v4_apply, val_main_call3_v3_apply, val_main_c_13_apply, val_main_call3_v2_apply,
    val_main_call3_v1_apply, val_main_call3_v0_apply, val_main_c_12_apply, v19_at]
  rfl

/-! ## Normalising a clipped word -/

/-- A clipped word compares as not below zero. -/
theorem cmpi_clip (w : BitVec 32) : IntOp.cmpi .slt (Bilinear.clip w) 0#32 = 0#1 := by
  show BitVec.ofBool ((Bilinear.clip w).slt 0#32) = 0#1
  rw [Bilinear.clip_not_slt_zero]
  rfl

/-- Selecting "the word plus something where it is negative, else the word" on a clipped word leaves it. -/
theorem norm_clip (w a : BitVec 32) :
    Scalar.select (IntOp.cmpi .slt (Bilinear.clip w) 0#32) a (Bilinear.clip w) = Bilinear.clip w := by
  rw [cmpi_clip]
  exact select_zero _ _

theorem v32_at (x0 : (⟨S8x256x256x2, .f32⟩ : BufTy).Contents (Elt Ideal)) (b : Fin 8) (h w : Fin 256) :
    val_main_v32 (F := Ideal) x0 (ix3 b h w) = Bilinear.lo (Bilinear.coordR (x0 (ix4 b h w (0 : Fin 2)))) := by
  rw [val_main_v32_apply, val_main_v29_apply, val_main_v28_apply, val_main_c_14_apply, v26_at]
  exact norm_clip _ _

theorem v37_at (x0 : (⟨S8x256x256x2, .f32⟩ : BufTy).Contents (Elt Ideal)) (b : Fin 8) (h w : Fin 256) :
    val_main_v37 (F := Ideal) x0 (ix3 b h w) = Bilinear.lo (Bilinear.coordR (x0 (ix4 b h w (1 : Fin 2)))) := by
  rw [val_main_v37_apply, val_main_v34_apply, val_main_v33_apply, val_main_c_16_apply, v27_at]
  exact norm_clip _ _

theorem v46_at (x0 : (⟨S8x256x256x2, .f32⟩ : BufTy).Contents (Elt Ideal)) (b : Fin 8) (h w : Fin 256) :
    val_main_v46 (F := Ideal) x0 (ix3 b h w) = Bilinear.lo (Bilinear.coordR (x0 (ix4 b h w (0 : Fin 2)))) := by
  rw [val_main_v46_apply, val_main_v43_apply, val_main_v42_apply, val_main_c_18_apply, v26_at]
  exact norm_clip _ _

theorem v51_at (x0 : (⟨S8x256x256x2, .f32⟩ : BufTy).Contents (Elt Ideal)) (b : Fin 8) (h w : Fin 256) :
    val_main_v51 (F := Ideal) x0 (ix3 b h w) = Bilinear.hi (Bilinear.coordR (x0 (ix4 b h w (1 : Fin 2)))) := by
  rw [val_main_v51_apply, val_main_v48_apply, val_main_v47_apply, val_main_c_20_apply, v25_at]
  exact norm_clip _ _

theorem v60_at (x0 : (⟨S8x256x256x2, .f32⟩ : BufTy).Contents (Elt Ideal)) (b : Fin 8) (h w : Fin 256) :
    val_main_v60 (F := Ideal) x0 (ix3 b h w) = Bilinear.hi (Bilinear.coordR (x0 (ix4 b h w (0 : Fin 2)))) := by
  rw [val_main_v60_apply, val_main_v57_apply, val_main_v56_apply, val_main_c_22_apply, v22_at]
  exact norm_clip _ _

theorem v65_at (x0 : (⟨S8x256x256x2, .f32⟩ : BufTy).Contents (Elt Ideal)) (b : Fin 8) (h w : Fin 256) :
    val_main_v65 (F := Ideal) x0 (ix3 b h w) = Bilinear.lo (Bilinear.coordR (x0 (ix4 b h w (1 : Fin 2)))) := by
  rw [val_main_v65_apply, val_main_v62_apply, val_main_v61_apply, val_main_c_24_apply, v27_at]
  exact norm_clip _ _

theorem v74_at (x0 : (⟨S8x256x256x2, .f32⟩ : BufTy).Contents (Elt Ideal)) (b : Fin 8) (h w : Fin 256) :
    val_main_v74 (F := Ideal) x0 (ix3 b h w) = Bilinear.hi (Bilinear.coordR (x0 (ix4 b h w (0 : Fin 2)))) := by
  rw [val_main_v74_apply, val_main_v71_apply, val_main_v70_apply, val_main_c_26_apply, v22_at]
  exact norm_clip _ _

theorem v79_at (x0 : (⟨S8x256x256x2, .f32⟩ : BufTy).Contents (Elt Ideal)) (b : Fin 8) (h w : Fin 256) :
    val_main_v79 (F := Ideal) x0 (ix3 b h w) = Bilinear.hi (Bilinear.coordR (x0 (ix4 b h w (1 : Fin 2)))) := by
  rw [val_main_v79_apply, val_main_v76_apply, val_main_v75_apply, val_main_c_28_apply, v25_at]
  exact norm_clip _ _

/-! ## The index columns, their joins and the four gathers -/

theorem v38_at (x0 : (⟨S8x256x256x2, .f32⟩ : BufTy).Contents (Elt Ideal)) (b : Fin 8) (h w : Fin 256) :
    val_main_v38 (F := Ideal) x0 (ix4 b h w (0 : Fin 1)) = Bilinear.lo (Bilinear.coordR (x0 (ix4 b h w (0 : Fin 2)))) := by
  rw [val_main_v38_apply, idx_v38_ix, v32_at]

theorem v39_at (x0 : (⟨S8x256x256x2, .f32⟩ : BufTy).Contents (Elt Ideal)) (b : Fin 8) (h w : Fin 256) :
    val_main_v39 (F := Ideal) x0 (ix4 b h w (0 : Fin 1)) = Bilinear.lo (Bilinear.coordR (x0 (ix4 b h w (1 : Fin 2)))) := by
  rw [val_main_v39_apply, idx_v39_ix, v37_at]

theorem v52_at (x0 : (⟨S8x256x256x2, .f32⟩ : BufTy).Contents (Elt Ideal)) (b : Fin 8) (h w : Fin 256) :
    val_main_v52 (F := Ideal) x0 (ix4 b h w (0 : Fin 1)) = Bilinear.lo (Bilinear.coordR (x0 (ix4 b h w (0 : Fin 2)))) := by
  rw [val_main_v52_apply, idx_v52_ix, v46_at]

theorem v53_at (x0 : (⟨S8x256x256x2, .f32⟩ : BufTy).Contents (Elt Ideal)) (b : Fin 8) (h w : Fin 256) :
    val_main_v53 (F := Ideal) x0 (ix4 b h w (0 : Fin 1)) = Bilinear.hi (Bilinear.coordR (x0 (ix4 b h w (1 : Fin 2)))) := by
  rw [val_main_v53_apply, idx_v53_ix, v51_at]

theorem v66_at (x0 : (⟨S8x256x256x2, .f32⟩ : BufTy).Contents (Elt Ideal)) (b : Fin 8) (h w : Fin 256) :
    val_main_v66 (F := Ideal) x0 (ix4 b h w (0 : Fin 1)) = Bilinear.hi (Bilinear.coordR (x0 (ix4 b h w (0 : Fin 2)))) := by
  rw [val_main_v66_apply, idx_v66_ix, v60_at]

theorem v67_at (x0 : (⟨S8x256x256x2, .f32⟩ : BufTy).Contents (Elt Ideal)) (b : Fin 8) (h w : Fin 256) :
    val_main_v67 (F := Ideal) x0 (ix4 b h w (0 : Fin 1)) = Bilinear.lo (Bilinear.coordR (x0 (ix4 b h w (1 : Fin 2)))) := by
  rw [val_main_v67_apply, idx_v67_ix, v65_at]

theorem v80_at (x0 : (⟨S8x256x256x2, .f32⟩ : BufTy).Contents (Elt Ideal)) (b : Fin 8) (h w : Fin 256) :
    val_main_v80 (F := Ideal) x0 (ix4 b h w (0 : Fin 1)) = Bilinear.hi (Bilinear.coordR (x0 (ix4 b h w (0 : Fin 2)))) := by
  rw [val_main_v80_apply, idx_v80_ix, v74_at]

theorem v81_at (x0 : (⟨S8x256x256x2, .f32⟩ : BufTy).Contents (Elt Ideal)) (b : Fin 8) (h w : Fin 256) :
    val_main_v81 (F := Ideal) x0 (ix4 b h w (0 : Fin 1)) = Bilinear.hi (Bilinear.coordR (x0 (ix4 b h w (1 : Fin 2)))) := by
  rw [val_main_v81_apply, idx_v81_ix, v79_at]

theorem v40_at0 (x0 : (⟨S8x256x256x2, .f32⟩ : BufTy).Contents (Elt Ideal)) (b : Fin 8) (h w : Fin 256) :
    val_main_v40 (F := Ideal) x0 (ix4 b h w (0 : Fin 2)) = Bilinear.lo (Bilinear.coordR (x0 (ix4 b h w (0 : Fin 2)))) := by
  exact (concat_cols_apply_zero _ _ _ b h w).trans (v38_at x0 b h w)

theorem v40_at1 (x0 : (⟨S8x256x256x2, .f32⟩ : BufTy).Contents (Elt Ideal)) (b : Fin 8) (h w : Fin 256) :
    val_main_v40 (F := Ideal) x0 (ix4 b h w (1 : Fin 2)) = Bilinear.lo (Bilinear.coordR (x0 (ix4 b h w (1 : Fin 2)))) := by
  exact (concat_cols_apply_one _ _ _ b h w).trans (v39_at x0 b h w)

theorem v54_at0 (x0 : (⟨S8x256x256x2, .f32⟩ : BufTy).Contents (Elt Ideal)) (b : Fin 8) (h w : Fin 256) :
    val_main_v54 (F := Ideal) x0 (ix4 b h w (0 : Fin 2)) = Bilinear.lo (Bilinear.coordR (x0 (ix4 b h w (0 : Fin 2)))) := by
  exact (concat_cols_apply_zero _ _ _ b h w).trans (v52_at x0 b h w)

theorem v54_at1 (x0 : (⟨S8x256x256x2, .f32⟩ : BufTy).Contents (Elt Ideal)) (b : Fin 8) (h w : Fin 256) :
    val_main_v54 (F := Ideal) x0 (ix4 b h w (1 : Fin 2)) = Bilinear.hi (Bilinear.coordR (x0 (ix4 b h w (1 : Fin 2)))) := by
  exact (concat_cols_apply_one _ _ _ b h w).trans (v53_at x0 b h w)

theorem v68_at0 (x0 : (⟨S8x256x256x2, .f32⟩ : BufTy).Contents (Elt Ideal)) (b : Fin 8) (h w : Fin 256) :
    val_main_v68 (F := Ideal) x0 (ix4 b h w (0 : Fin 2)) = Bilinear.hi (Bilinear.coordR (x0 (ix4 b h w (0 : Fin 2)))) := by
  exact (concat_cols_apply_zero _ _ _ b h w).trans (v66_at x0 b h w)

theorem v68_at1 (x0 : (⟨S8x256x256x2, .f32⟩ : BufTy).Contents (Elt Ideal)) (b : Fin 8) (h w : Fin 256) :
    val_main_v68 (F := Ideal) x0 (ix4 b h w (1 : Fin 2)) = Bilinear.lo (Bilinear.coordR (x0 (ix4 b h w (1 : Fin 2)))) := by
  exact (concat_cols_apply_one _ _ _ b h w).trans (v67_at x0 b h w)

theorem v82_at0 (x0 : (⟨S8x256x256x2, .f32⟩ : BufTy).Contents (Elt Ideal)) (b : Fin 8) (h w : Fin 256) :
    val_main_v82 (F := Ideal) x0 (ix4 b h w (0 : Fin 2)) = Bilinear.hi (Bilinear.coordR (x0 (ix4 b h w (0 : Fin 2)))) := by
  exact (concat_cols_apply_zero _ _ _ b h w).trans (v80_at x0 b h w)

theorem v82_at1 (x0 : (⟨S8x256x256x2, .f32⟩ : BufTy).Contents (Elt Ideal)) (b : Fin 8) (h w : Fin 256) :
    val_main_v82 (F := Ideal) x0 (ix4 b h w (1 : Fin 2)) = Bilinear.hi (Bilinear.coordR (x0 (ix4 b h w (1 : Fin 2)))) := by
  exact (concat_cols_apply_one _ _ _ b h w).trans (v81_at x0 b h w)

theorem v41_at (x0 : (⟨S8x256x256x2, .f32⟩ : BufTy).Contents (Elt Ideal)) (x1 : (⟨S64x64x128, .f32⟩ : BufTy).Contents (Elt Ideal)) (b : Fin 8) (h w : Fin 256) (f : Fin 128) :
    val_main_v41 (F := Ideal) x0 x1 (ix4 b h w f)
      = x1 (ix3 (Bilinear.row (Bilinear.lo (Bilinear.coordR (x0 (ix4 b h w (0 : Fin 2)))))) (Bilinear.row (Bilinear.lo (Bilinear.coordR (x0 (ix4 b h w (1 : Fin 2)))))) f) := by
  unfold val_main_v41
  refine (gather_row_apply _ x1 (val_main_v40 (F := Ideal) x0) b h w f).trans ?_
  rw [v40_at0, v40_at1]
  rfl

theorem v55_at (x0 : (⟨S8x256x256x2, .f32⟩ : BufTy).Contents (Elt Ideal)) (x1 : (⟨S64x64x128, .f32⟩ : BufTy).Contents (Elt Ideal)) (b : Fin 8) (h w : Fin 256) (f : Fin 128) :
    val_main_v55 (F := Ideal) x0 x1 (ix4 b h w f)
      = x1 (ix3 (Bilinear.row (Bilinear.lo (Bilinear.coordR (x0 (ix4 b h w (0 : Fin 2)))))) (Bilinear.row (Bilinear.hi (Bilinear.coordR (x0 (ix4 b h w (1 : Fin 2)))))) f) := by
  unfold val_main_v55
  refine (gather_row_apply _ x1 (val_main_v54 (F := Ideal) x0) b h w f).trans ?_
  rw [v54_at0, v54_at1]
  rfl

theorem v69_at (x0 : (⟨S8x256x256x2, .f32⟩ : BufTy).Contents (Elt Ideal)) (x1 : (⟨S64x64x128, .f32⟩ : BufTy).Contents (Elt Ideal)) (b : Fin 8) (h w : Fin 256) (f : Fin 128) :
    val_main_v69 (F := Ideal) x0 x1 (ix4 b h w f)
      = x1 (ix3 (Bilinear.row (Bilinear.hi (Bilinear.coordR (x0 (ix4 b h w (0 : Fin 2)))))) (Bilinear.row (Bilinear.lo (Bilinear.coordR (x0 (ix4 b h w (1 : Fin 2)))))) f) := by
  unfold val_main_v69
  refine (gather_row_apply _ x1 (val_main_v68 (F := Ideal) x0) b h w f).trans ?_
  rw [v68_at0, v68_at1]
  rfl

theorem v83_at (x0 : (⟨S8x256x256x2, .f32⟩ : BufTy).Contents (Elt Ideal)) (x1 : (⟨S64x64x128, .f32⟩ : BufTy).Contents (Elt Ideal)) (b : Fin 8) (h w : Fin 256) (f : Fin 128) :
    val_main_v83 (F := Ideal) x0 x1 (ix4 b h w f)
      = x1 (ix3 (Bilinear.row (Bilinear.hi (Bilinear.coordR (x0 (ix4 b h w (0 : Fin 2)))))) (Bilinear.row (Bilinear.hi (Bilinear.coordR (x0 (ix4 b h w (1 : Fin 2)))))) f) := by
  unfold val_main_v83
  refine (gather_row_apply _ x1 (val_main_v82 (F := Ideal) x0) b h w f).trans ?_
  rw [v82_at0, v82_at1]
  rfl

/-! ## The weights and the blend -/

/-- The offset inside the first cell. -/
theorem v85_at (x0 : (⟨S8x256x256x2, .f32⟩ : BufTy).Contents (Elt Ideal)) (b : Fin 8) (h w : Fin 256) :
    val_main_v85 (F := Ideal) x0 (ix3 b h w) = Bilinear.fracR (Bilinear.coordR (x0 (ix4 b h w (0 : Fin 2)))) := by
  rw [val_main_v85_apply, val_main_v84_apply, v7_at, v17_at]
  rfl

/-- The offset inside the second cell. -/
theorem v88_at (x0 : (⟨S8x256x256x2, .f32⟩ : BufTy).Contents (Elt Ideal)) (b : Fin 8) (h w : Fin 256) :
    val_main_v88 (F := Ideal) x0 (ix3 b h w) = Bilinear.fracR (Bilinear.coordR (x0 (ix4 b h w (1 : Fin 2)))) := by
  rw [val_main_v88_apply, val_main_v87_apply, v15_at, v19_at]
  rfl

theorem v86_at (x0 : (⟨S8x256x256x2, .f32⟩ : BufTy).Contents (Elt Ideal)) (b : Fin 8) (h w : Fin 256) :
    val_main_v86 (F := Ideal) x0 (ix4 b h w (0 : Fin 1)) = Bilinear.fracR (Bilinear.coordR (x0 (ix4 b h w (0 : Fin 2)))) := by
  rw [val_main_v86_apply, idx_v86_ix, v85_at]

theorem v89_at (x0 : (⟨S8x256x256x2, .f32⟩ : BufTy).Contents (Elt Ideal)) (b : Fin 8) (h w : Fin 256) :
    val_main_v89 (F := Ideal) x0 (ix4 b h w (0 : Fin 1)) = Bilinear.fracR (Bilinear.coordR (x0 (ix4 b h w (1 : Fin 2)))) := by
  rw [val_main_v89_apply, idx_v89_ix, v88_at]

theorem v92_at (x0 : (⟨S8x256x256x2, .f32⟩ : BufTy).Contents (Elt Ideal)) (b : Fin 8) (h w : Fin 256) (f : Fin 128) :
    val_main_v92 (F := Ideal) x0 (ix4 b h w f) = Bilinear.oneW - Bilinear.fracR (Bilinear.coordR (x0 (ix4 b h w (0 : Fin 2)))) := by
  rw [val_main_v92_apply, idx_v92_ix, val_main_v91_apply, val_main_v90_apply, val_main_cst_30_apply, v86_at]
  rfl

theorem v99_at (x0 : (⟨S8x256x256x2, .f32⟩ : BufTy).Contents (Elt Ideal)) (b : Fin 8) (h w : Fin 256) (f : Fin 128) :
    val_main_v99 (F := Ideal) x0 (ix4 b h w f) = Bilinear.oneW - Bilinear.fracR (Bilinear.coordR (x0 (ix4 b h w (0 : Fin 2)))) := by
  rw [val_main_v99_apply, idx_v99_ix, val_main_v98_apply, val_main_v97_apply, val_main_cst_31_apply, v86_at]
  rfl

theorem v106_at (x0 : (⟨S8x256x256x2, .f32⟩ : BufTy).Contents (Elt Ideal)) (b : Fin 8) (h w : Fin 256) (f : Fin 128) :
    val_main_v106 (F := Ideal) x0 (ix4 b h w f) = Bilinear.oneW - Bilinear.fracR (Bilinear.coordR (x0 (ix4 b h w (1 : Fin 2)))) := by
  rw [val_main_v106_apply, idx_v106_ix, val_main_v105_apply, val_main_v104_apply, val_main_cst_32_apply, v89_at]
  rfl

theorem v94_at (x0 : (⟨S8x256x256x2, .f32⟩ : BufTy).Contents (Elt Ideal)) (b : Fin 8) (h w : Fin 256) (f : Fin 128) :
    val_main_v94 (F := Ideal) x0 (ix4 b h w f) = Bilinear.fracR (Bilinear.coordR (x0 (ix4 b h w (0 : Fin 2)))) := by
  rw [val_main_v94_apply, idx_v94_ix, v86_at]

theorem v101_at (x0 : (⟨S8x256x256x2, .f32⟩ : BufTy).Contents (Elt Ideal)) (b : Fin 8) (h w : Fin 256) (f : Fin 128) :
    val_main_v101 (F := Ideal) x0 (ix4 b h w f) = Bilinear.fracR (Bilinear.coordR (x0 (ix4 b h w (0 : Fin 2)))) := by
  rw [val_main_v101_apply, idx_v101_ix, v86_at]

theorem v108_at (x0 : (⟨S8x256x256x2, .f32⟩ : BufTy).Contents (Elt Ideal)) (b : Fin 8) (h w : Fin 256) (f : Fin 128) :
    val_main_v108 (F := Ideal) x0 (ix4 b h w f) = Bilinear.fracR (Bilinear.coordR (x0 (ix4 b h w (1 : Fin 2)))) := by
  rw [val_main_v108_apply, idx_v108_ix, v89_at]

/-- The result at `(b, h, w, f)` is the blend of the four corner rows. -/
theorem v110_at (x0 : (⟨S8x256x256x2, .f32⟩ : BufTy).Contents (Elt Ideal)) (x1 : (⟨S64x64x128, .f32⟩ : BufTy).Contents (Elt Ideal)) (b : Fin 8) (h w : Fin 256) (f : Fin 128) :
    val_main_v110 (F := Ideal) x0 x1 (ix4 b h w f)
      = Bilinear.blend x1 (Bilinear.row (Bilinear.lo (Bilinear.coordR (x0 (ix4 b h w (0 : Fin 2)))))) (Bilinear.row (Bilinear.hi (Bilinear.coordR (x0 (ix4 b h w (0 : Fin 2))))))
          (Bilinear.row (Bilinear.lo (Bilinear.coordR (x0 (ix4 b h w (1 : Fin 2)))))) (Bilinear.row (Bilinear.hi (Bilinear.coordR (x0 (ix4 b h w (1 : Fin 2))))))
          (Bilinear.fracR (Bilinear.coordR (x0 (ix4 b h w (0 : Fin 2))))) (Bilinear.fracR (Bilinear.coordR (x0 (ix4 b h w (1 : Fin 2))))) f := by
  rw [val_main_v110_apply, val_main_v107_apply, val_main_v109_apply, val_main_v96_apply, val_main_v103_apply,
    val_main_v93_apply, val_main_v95_apply, val_main_v100_apply, val_main_v102_apply,
    v41_at, v69_at, v55_at, v83_at, v92_at, v94_at, v99_at, v101_at, v106_at, v108_at]
  rfl

/-- THE REFERENCE IS THE BLEND, index by index. -/
theorem ref_eq (x0 : (⟨S8x256x256x2, .f32⟩ : BufTy).Contents (Elt Ideal)) (x1 : (⟨S64x64x128, .f32⟩ : BufTy).Contents (Elt Ideal)) :
    Cert.ReferenceIdeal.Read.val_main_v110 (F := Ideal) x0 x1 = Cert.Bilinear.Gref x0 x1 := by
  funext i
  obtain ⟨b, h, w, f, rfl⟩ : ∃ (b : Fin 8) (h w : Fin 256) (f : Fin 128), i = ix4 b h w f :=
    ⟨i 0, i 1, i 2, i 3, eq_ix4 i⟩
  rw [v110_at]
  rfl

end Cert.RefRead

end
-- ==== Proof.lean ====
/-
  A bilinear-interpolation positional embedding: positions f32[8, 256, 256, 2] are scaled onto a 64 × 64 grid of
  128-feature rows, and each output row is the blend of the four grid rows around the position.

  The kernel flattens the positions and the table, and per block of 256 positions builds for each axis a vector of 64
  weights — one minus the offset on the lower grid line, the offset on the upper one, added where the two lines
  coincide — contracts the first axis by one matrix product against the flattened table and the second by a weighted
  sum; the reference gathers the four corner rows and blends them. On the extended reals the two agree when the
  positions are reals in [-2^25, 2^25) and the table is real: there the cell index ⌊64·p⌋ fits a signed 32-bit word, so
  the reference's offset, taken against the word converted back to a float, is the kernel's, taken against the floor;
  and for real weights and a real table the double sum over the grid lines collapses to the four-corner blend.

  The kernel's frames are the generated ones; the reference's frame is its generated run with the result dropped; the
  idealization rewrote nothing. The kernel's value is read off its frame run block by block (KPay, KBlocks, KValue),
  the reference's off its run operation by operation (RunP, ReadP, RefGather, RefRead), the precondition is decoded in
  PreFacts, and KBridge joins the two whole-array functions.
-/
import proofs.«162530_j16896401342851_2_alg».proof.Defs
import proofs.«162530_j16896401342851_2_alg».proof.Proof.Gen.Kernel
import proofs.«162530_j16896401342851_2_alg».proof.Proof.Gen.Kernel.Frame
import proofs.«162530_j16896401342851_2_alg».proof.Proof.Gen.KernelIdeal
import proofs.«162530_j16896401342851_2_alg».proof.Proof.Gen.KernelIdeal.Frame
import proofs.«162530_j16896401342851_2_alg».proof.Proof.Gen.ReferenceIdeal
import proofs.«162530_j16896401342851_2_alg».proof.Proof.Gen.Pre_finite_inputs
import proofs.«162530_j16896401342851_2_alg».proof.Proof.RunP
import proofs.«162530_j16896401342851_2_alg».proof.Proof.ReadP
import proofs.«162530_j16896401342851_2_alg».proof.Proof.KValue
import proofs.«162530_j16896401342851_2_alg».proof.Proof.KBridge
import proofs.«162530_j16896401342851_2_alg».proof.Proof.PreFacts
import proofs.«162530_j16896401342851_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the bilinear blend of the arguments: the kernel's whole-array function
    is the reference's wherever the precondition holds. -/
theorem algebraic : Cert.algebraic_KernelIdeal_ReferenceIdeal := by
  intro m ρ m' ρ' hpre hagree
  refine ⟨fun c => Cert.KPay.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hE⟩ := Cert.PreFacts.pre_decode _ _ (hpre c)
  rw [Cert.ReferenceIdeal.Read.val_main_v110_eq, Cert.RefRead.ref_eq, (hagree c).1, (hagree c).2]
  exact (Cert.KBridge.Gker_eq_Gref _ _ hP hE).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
